-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32000 : Shape := ⟨2, ![2, 32000]⟩
abbrev S16002x2048 : Shape := ⟨2, ![16002, 2048]⟩
abbrev S2048 : Shape := ⟨1, ![2048]⟩
abbrev S_ : Shape := ⟨0, ![]⟩

class Facts : Prop where
  bcast_S_S2x32000 : S_.BroadcastsInDim S2x32000 (![] : Fin 0 → Fin S2x32000.rank)
  reducesTo_S2x32000_S_d0_1 : S2x32000.ReducesTo [0, 1] S_
  h_S_ : 0 < S_.numel
  bcast_S_S16002x2048 : S_.BroadcastsInDim S16002x2048 (![] : Fin 0 → Fin S16002x2048.rank)
  reducesTo_S16002x2048_S_d0_1 : S16002x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v15 : FVec F S_ .f32) : IVec S_ 1 :=
  let main_cst_6 : FVec F S_ .f32 := constant S_ .f32 0x00000000#32
  let main_v16 : IVec S_ 1 := cmpf .une main_v15 main_cst_6
  let main_v17 : IVec S_ 1 := andi main_v13 main_v16
  main_v17

def fn {F : FTy → Type} [FloatOps F] (main_arg0 : FVec F S2x32000 .f32) (main_arg1 : FVec F S16002x2048 .f32) (main_arg2 : FVec F S2048 .f32) : IVec S_ 1 :=
  let main_v0 : FVec F S2x32000 .f32 := Host.absf main_arg0
  let main_cst : FVec F S_ .f32 := constant S_ .f32 0x7F800000#32
  let main_v1 : FVec F S2x32000 .f32 := broadcastInDim S2x32000 ![] bcast_S_S2x32000 main_cst
  let main_v2 : IVec S2x32000 1 := cmpf .olt main_v0 main_v1
  let main_c : IVec S_ 1 := constantI S_ 1 1#1
  let main_v3 : IVec S_ 1 := (fun x v => Host.reduce IntOp.andi x v reducesTo_S2x32000_S_d0_1 h_S_) main_v2 main_c
  let main_v4 : FVec F S16002x2048 .f32 := Host.absf main_arg1
  let main_cst_0 : FVec F S_ .f32 := constant S_ .f32 0x7F800000#32
  let main_v5 : FVec F S16002x2048 .f32 := broadcastInDim S16002x2048 ![] bcast_S_S16002x2048 main_cst_0
  let main_v6 : IVec S16002x2048 1 := cmpf .olt main_v4 main_v5
  let main_c_1 : IVec S_ 1 := constantI S_ 1 1#1
  let main_v7 : IVec S_ 1 := (fun x v => Host.reduce IntOp.andi x v reducesTo_S16002x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_cst_4 : FVec F S_ .f32 := constant S_ .f32 0x00000000#32
  let main_v14 : FVec F S_ .f32 := (fun x v => Host.reduceAdd x v reducesTo_S2048_S_d0 h_S_) main_arg2 main_cst_4
  let main_cst_5 : FVec F S_ .f32 := constant S_ .f32 0x467A0000#32
  let main_v15 : FVec F S_ .f32 := Host.divf main_v14 main_cst_5
  fn_part1 (F := F) main_v13 main_v15
-- ==== Kernel.lean ====
abbrev S2x32000 : Shape := ⟨2, ![2, 32000]⟩
abbrev S16002x2048 : Shape := ⟨2, ![16002, 2048]⟩
abbrev S2048 : Shape := ⟨1, ![2048]⟩
abbrev S_ : Shape := ⟨0, ![]⟩
abbrev S2x34048 : Shape := ⟨2, ![2, 34048]⟩
abbrev S2x2128x16 : Shape := ⟨3, ![2, 2128, 16]⟩
abbrev S2000 : Shape := ⟨1, ![2000]⟩
abbrev S2000x1 : Shape := ⟨2, ![2000, 1]⟩
abbrev S128 : Shape := ⟨1, ![128]⟩
abbrev S1x128 : Shape := ⟨2, ![1, 128]⟩
abbrev S2000x128 : Shape := ⟨2, ![2000, 128]⟩
abbrev S2000x128x1 : Shape := ⟨3, ![2000, 128, 1]⟩
abbrev S2x2000x128x16 : Shape := ⟨4, ![2, 2000, 128, 16]⟩
abbrev S2x2000x2048 : Shape := ⟨3, ![2, 2000, 2048]⟩
abbrev S1x2048 : Shape := ⟨2, ![1, 2048]⟩
abbrev S2x16002x2000 : Shape := ⟨3, ![2, 16002, 2000]⟩
abbrev S256x2048 : Shape := ⟨2, ![256, 2048]⟩
abbrev S2x256x2000 : Shape := ⟨3, ![2, 256, 2000]⟩
abbrev S1x2000x2048 : Shape := ⟨3, ![1, 2000, 2048]⟩
abbrev S2000x2048 : Shape := ⟨2, ![2000, 2048]⟩
abbrev S256x2000 : Shape := ⟨2, ![256, 2000]⟩
abbrev S1x256x2000 : Shape := ⟨3, ![1, 256, 2000]⟩
abbrev S2x8001x2000 : Shape := ⟨3, ![2, 8001, 2000]⟩

abbrev nBuf : Space → Nat
  | .hbm => 40
  | .vmem => 6
  | .smem => 0
  | _ => 0

abbrev bufTy : (tb : Table) → Fin (tcTables nBuf tb) → BufTy
  | .hbm, ⟨0, _⟩ => ⟨S2x32000, .f32⟩
  | .hbm, ⟨1, _⟩ => ⟨S16002x2048, .f32⟩
  | .hbm, ⟨2, _⟩ => ⟨S2048, .f32⟩
  | .hbm, ⟨3, _⟩ => ⟨S_, .i32⟩
  | .hbm, ⟨4, _⟩ => ⟨S_, .f32⟩
  | .hbm, ⟨5, _⟩ => ⟨S2x34048, .f32⟩
  | .hbm, ⟨6, _⟩ => ⟨S2x2128x16, .f32⟩
  | .hbm, ⟨7, _⟩ => ⟨S2000, .i32⟩
  | .hbm, ⟨8, _⟩ => ⟨S2000x1, .i32⟩
  | .hbm, ⟨9, _⟩ => ⟨S128, .i32⟩
  | .hbm, ⟨10, _⟩ => ⟨S1x128, .i32⟩
  | .hbm, ⟨11, _⟩ => ⟨S2000x128, .i32⟩
  | .hbm, ⟨12, _⟩ => ⟨S2000x128, .i32⟩
  | .hbm, ⟨13, _⟩ => ⟨S2000x128, .i32⟩
  | .hbm, ⟨14, _⟩ => ⟨S_, .i32⟩
  | .hbm, ⟨15, _⟩ => ⟨S2000x128, .i32⟩
  | .hbm, ⟨16, _⟩ => ⟨S2000x128, .i1⟩
  | .hbm, ⟨17, _⟩ => ⟨S_, .i32⟩
  | .hbm, ⟨18, _⟩ => ⟨S2000x128, .i32⟩
  | .hbm, ⟨19, _⟩ => ⟨S2000x128, .i32⟩
  | .hbm, ⟨20, _⟩ => ⟨S2000x128, .i32⟩
  | .hbm, ⟨21, _⟩ => ⟨S2000x128x1, .i32⟩
  | .hbm, ⟨22, _⟩ => ⟨S2x2000x128x16, .f32⟩
  | .hbm, ⟨23, _⟩ => ⟨S2x2000x2048, .f32⟩
  | .hbm, ⟨24, _⟩ => ⟨S2x2000x2048, .bf16⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S2048, .f32⟩
  | .hbm, ⟨36, _⟩ => ⟨S1x2048, .f32⟩
  | .hbm, ⟨37, _⟩ => ⟨S2x16002x2000, .f32⟩
  | .hbm, ⟨38, _⟩ => ⟨S2x8001x2000, .f32⟩
  | .hbm, ⟨39, _⟩ => ⟨S2x8001x2000, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2x2000x2048, .bf16⟩
  | .local _ .vmem, ⟨4, _⟩ => ⟨S2x256x2000, .f32⟩
  | .local _ .vmem, ⟨5, _⟩ => ⟨S2x256x2000, .f32⟩
  | _, _ => ⟨S2x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![63], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x2000x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  pads_S2x32000_S2x34048_000_204710 : S2x32000.Pads (![0, 2047] : Fin 2 → Nat) ![0, 1] ![0, 0] S2x34048
  h_S_ : 0 < S_.numel
  shapeCasts_S2x34048_S2x2128x16 : S2x34048.ShapeCasts S2x2128x16
  bcast_S2000_S2000x1_0 : S2000.BroadcastsInDim S2000x1 (![0] : Fin 1 → Fin S2000x1.rank)
  bcast_S128_S1x128_1 : S128.BroadcastsInDim S1x128 (![1] : Fin 1 → Fin S1x128.rank)
  bcast_S2000x1_S2000x128_0_1 : S2000x1.BroadcastsInDim S2000x128 (![0, 1] : Fin 2 → Fin S2000x128.rank)
  bcast_S1x128_S2000x128_0_1 : S1x128.BroadcastsInDim S2000x128 (![0, 1] : Fin 2 → Fin S2000x128.rank)
  bcast_S_S2000x128 : S_.BroadcastsInDim S2000x128 (![] : Fin 0 → Fin S2000x128.rank)
  bcast_S2000x128_S2000x128x1_0_1 : S2000x128.BroadcastsInDim S2000x128x1 (![0, 1] : Fin 2 → Fin S2000x128x1.rank)
  shapeCasts_S2x2000x128x16_S2x2000x2048 : S2x2000x128x16.ShapeCasts S2x2000x2048
  bitsLt_bf16_f32 : FTy.bits .bf16 < FTy.bits .f32
  reducesTo_S2048_S_d0 : S2048.ReducesTo [0] S_
  bcast_S_S2048 : S_.BroadcastsInDim S2048 (![] : Fin 0 → Fin S2048.rank)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2x2000x2048_S1x2000x2048_0_0_0 : ∀ a, (![0, 0, 0] : Fin 3 → Nat) a + S1x2000x2048.size a ≤ S2x2000x2048.size a
  h_S1x2000x2048 : 0 < S1x2000x2048.numel
  shapeCasts_S1x2000x2048_S2000x2048 : S1x2000x2048.ShapeCasts S2000x2048
  inb_S2x256x2000_S1x256x2000_0_0_0 : ∀ a, (![0, 0, 0] : Fin 3 → Nat) a + S1x256x2000.size a ≤ S2x256x2000.size a
  h_S1x256x2000 : 0 < S1x256x2000.numel
  shapeCasts_S1x256x2000_S256x2000 : S1x256x2000.ShapeCasts S256x2000
  shapeCasts_S256x2000_S1x256x2000 : S256x2000.ShapeCasts S1x256x2000
  inb_S2x2000x2048_S1x2000x2048_1_0_0 : ∀ a, (![1, 0, 0] : Fin 3 → Nat) a + S1x2000x2048.size a ≤ S2x2000x2048.size a
  inb_S2x256x2000_S1x256x2000_1_0_0 : ∀ a, (![1, 0, 0] : Fin 3 → Nat) a + S1x256x2000.size a ≤ S2x256x2000.size a
  slices_S2x16002x2000_S2x8001x2000_0_0_0 : S2x16002x2000.Slices ![0, 0, 0] S2x8001x2000
  slices_S2x16002x2000_S2x8001x2000_0_8001_0 : S2x16002x2000.Slices ![0, 8001, 0] S2x8001x2000
  gather_S2x2128x16_S2000x128x1_S2x2000x128x16_03_1_n_n_1_2_2116_wf : GatherDims.WF S2x2128x16 S2000x128x1 S2x2000x128x16 [0, 3] [1] [] [1] [] 2 ![2, 1, 16]
  dot_S256x2048_S2000x2048_S256x2000_1_1_0_0_n_n_wf : DotDims.WF S256x2048 S2000x2048 S256x2000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S256x2048.size a < S16002x2048.size a
  hwx0_0 : ∀ i : grid0.Coords, EltTy.bits .f32 = 32 ∨ (Rect.unit (s := S16002x2048) (fun a => cc0_transform_0 i a * S256x2048.size a) (fun a => (Pipeline.Clip.of (cc0_transform_0 i a) (S256x2048.size a) (S16002x2048.size a)).extent (S256x2048.size a)) fun a => Pipeline.Clip.inb (Pipeline.Clip.ok_of (hstart0_0 i a))).WholeWords (EltTy.packing .f32)
  hwxs0_0 : ∀ i : grid0.Coords, EltTy.bits .f32 = 32 ∨ (Rect.unit (s := S256x2048) (fun _ => 0) (fun a => (Pipeline.Clip.of (cc0_transform_0 i a) (S256x2048.size a) (S16002x2048.size a)).extent (S256x2048.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x2000x2048.size a ≤ S2x2000x2048.size a
  hwx0_2 : ∀ i : grid0.Coords, EltTy.bits .bf16 = 32 ∨ (Rect.block (s := S2x2000x2048) S2x2000x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2x256x2000.size a < S2x16002x2000.size a
  hwx0_3 : ∀ i : grid0.Coords, EltTy.bits .f32 = 32 ∨ (Rect.unit (s := S2x16002x2000) (fun a => cc0_transform_3 i a * S2x256x2000.size a) (fun a => (Pipeline.Clip.of (cc0_transform_3 i a) (S2x256x2000.size a) (S2x16002x2000.size a)).extent (S2x256x2000.size a)) fun a => Pipeline.Clip.inb (Pipeline.Clip.ok_of (hstart0_3 i a))).WholeWords (EltTy.packing .f32)
  hwxs0_3 : ∀ i : grid0.Coords, EltTy.bits .f32 = 32 ∨ (Rect.unit (s := S2x256x2000) (fun _ => 0) (fun a => (Pipeline.Clip.of (cc0_transform_3 i a) (S2x256x2000.size a) (S2x16002x2000.size a)).extent (S2x256x2000.size a)) fun a => (Nat.zero_add _).trans_le (Pipeline.Clip.extent_le (Pipeline.Clip.ok_of (hstart0_3 i a)))).WholeWords (EltTy.packing .f32)

variable [Facts₀]

def gather_S2x2128x16_S2000x128x1_S2x2000x128x16_03_1_n_n_1_2_2116 : GatherDims S2x2128x16 S2000x128x1 S2x2000x128x16 where
  offsetDims := [0, 3]
  collapsedSliceDims := [1]
  operandBatchingDims := []
  startIndicesBatchingDims := []
  startIndexMap := [1]
  indexVectorDim := 2
  sliceSizes := ![2, 1, 16]
  wf := gather_S2x2128x16_S2000x128x1_S2x2000x128x16_03_1_n_n_1_2_2116_wf
def dot_S256x2048_S2000x2048_S256x2000_1_1_0_0_n_n : DotDims S256x2048 S2000x2048 S256x2000 where
  lhsContracting := [1]
  rhsContracting := [1]
  lhsNonContracting := [0]
  rhsNonContracting := [0]
  lhsBatch := []
  rhsBatch := []
  wf := dot_S256x2048_S2000x2048_S256x2000_1_1_0_0_n_n_wf

abbrev win0_0 : Pipeline.Window sig grid0 :=
  Pipeline.Window.ofSpecClip (Memref.whole main_arg1) S256x2048.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v25) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2x2000x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v26) S2x256x2000.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x32000 : Shape := ⟨2, ![2, 32000]⟩
abbrev S16002x2048 : Shape := ⟨2, ![16002, 2048]⟩
abbrev S2048 : Shape := ⟨1, ![2048]⟩
abbrev S1x2048 : Shape := ⟨2, ![1, 2048]⟩
abbrev S_ : Shape := ⟨0, ![]⟩
abbrev S2x34047 : Shape := ⟨2, ![2, 34047]⟩
abbrev S2000 : Shape := ⟨1, ![2000]⟩
abbrev S2000x1 : Shape := ⟨2, ![2000, 1]⟩
abbrev S2000x2048 : Shape := ⟨2, ![2000, 2048]⟩
abbrev S2000x2048x1 : Shape := ⟨3, ![2000, 2048, 1]⟩
abbrev S2x2000x2048 : Shape := ⟨3, ![2, 2000, 2048]⟩
abbrev S16002x2x2000 : Shape := ⟨3, ![16002, 2, 2000]⟩
abbrev S2x16002x2000 : Shape := ⟨3, ![2, 16002, 2000]⟩
abbrev S2x8001x2000 : Shape := ⟨3, ![2, 8001, 2000]⟩

abbrev nBuf : Space → Nat
  | .hbm => 45
  | .vmem => 0
  | .smem => 0
  | _ => 0

abbrev bufTy : (tb : Table) → Fin (tcTables nBuf tb) → BufTy
  | .hbm, ⟨0, _⟩ => ⟨S2x32000, .f32⟩
  | .hbm, ⟨1, _⟩ => ⟨S16002x2048, .f32⟩
  | .hbm, ⟨2, _⟩ => ⟨S2048, .f32⟩
  | .hbm, ⟨3, _⟩ => ⟨S1x2048, .f32⟩
  | .hbm, ⟨4, _⟩ => ⟨S16002x2048, .f32⟩
  | .hbm, ⟨5, _⟩ => ⟨S16002x2048, .f32⟩
  | .hbm, ⟨6, _⟩ => ⟨S_, .f32⟩
  | .hbm, ⟨7, _⟩ => ⟨S16002x2048, .f32⟩
  | .hbm, ⟨8, _⟩ => ⟨S16002x2048, .f32⟩
  | .hbm, ⟨9, _⟩ => ⟨S_, .i32⟩
  | .hbm, ⟨10, _⟩ => ⟨S_, .f32⟩
  | .hbm, ⟨11, _⟩ => ⟨S2x34047, .f32⟩
  | .hbm, ⟨12, _⟩ => ⟨S2000, .i32⟩
  | .hbm, ⟨13, _⟩ => ⟨S2000x1, .i32⟩
  | .hbm, ⟨14, _⟩ => ⟨S_, .i32⟩
  | .hbm, ⟨15, _⟩ => ⟨S2000x1, .i32⟩
  | .hbm, ⟨16, _⟩ => ⟨S2000x1, .i32⟩
  | .hbm, ⟨17, _⟩ => ⟨S2048, .i32⟩
  | .hbm, ⟨18, _⟩ => ⟨S1x2048, .i32⟩
  | .hbm, ⟨19, _⟩ => ⟨S2000x2048, .i32⟩
  | .hbm, ⟨20, _⟩ => ⟨S2000x2048, .i32⟩
  | .hbm, ⟨21, _⟩ => ⟨S2000x2048, .i32⟩
  | .hbm, ⟨22, _⟩ => ⟨S_, .i32⟩
  | .hbm, ⟨23, _⟩ => ⟨S2000x2048, .i32⟩
  | .hbm, ⟨24, _⟩ => ⟨S2000x2048, .i1⟩
  | .hbm, ⟨25, _⟩ => ⟨S_, .i32⟩
  | .hbm, ⟨26, _⟩ => ⟨S2000x2048, .i32⟩
  | .hbm, ⟨27, _⟩ => ⟨S2000x2048, .i32⟩
  | .hbm, ⟨28, _⟩ => ⟨S2000x2048, .i32⟩
  | .hbm, ⟨29, _⟩ => ⟨S2000x2048x1, .i32⟩
  | .hbm, ⟨30, _⟩ => ⟨S2x2000x2048, .f32⟩
  | .hbm, ⟨31, _⟩ => ⟨S16002x2x2000, .f32⟩
  | .hbm, ⟨32, _⟩ => ⟨S2x16002x2000, .f32⟩
  | .hbm, ⟨33, _⟩ => ⟨S2x8001x2000, .f32⟩
  | .hbm, ⟨34, _⟩ => ⟨S2x8001x2000, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S2x8001x2000, .f32⟩
  | .hbm, ⟨42, _⟩ => ⟨S2x8001x2000, .f32⟩
  | .hbm, ⟨43, _⟩ => ⟨S2x8001x2000, .f32⟩
  | .hbm, ⟨44, _⟩ => ⟨S2x8001x2000, .f32⟩
  | _, _ => ⟨S2x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S16002x2048_0_1 : S1x2048.BroadcastsInDim S16002x2048 (![0, 1] : Fin 2 → Fin S16002x2048.rank)
  bcast_S_S16002x2048 : S_.BroadcastsInDim S16002x2048 (![] : Fin 0 → Fin S16002x2048.rank)
  pads_S2x32000_S2x34047_000_204700 : S2x32000.Pads (![0, 2047] : Fin 2 → Nat) ![0, 0] ![0, 0] S2x34047
  h_S_ : 0 < S_.numel
  bcast_S2000_S2000x1_0 : S2000.BroadcastsInDim S2000x1 (![0] : Fin 1 → Fin S2000x1.rank)
  bcast_S_S2000x1 : S_.BroadcastsInDim S2000x1 (![] : Fin 0 → Fin S2000x1.rank)
  bcast_S2000x1_S2000x2048_0_1 : S2000x1.BroadcastsInDim S2000x2048 (![0, 1] : Fin 2 → Fin S2000x2048.rank)
  bcast_S1x2048_S2000x2048_0_1 : S1x2048.BroadcastsInDim S2000x2048 (![0, 1] : Fin 2 → Fin S2000x2048.rank)
  bcast_S_S2000x2048 : S_.BroadcastsInDim S2000x2048 (![] : Fin 0 → Fin S2000x2048.rank)
  bcast_S2000x2048_S2000x2048x1_0_1 : S2000x2048.BroadcastsInDim S2000x2048x1 (![0, 1] : Fin 2 → Fin S2000x2048x1.rank)
  transposes_S16002x2x2000_S2x16002x2000_1_0_2 : S16002x2x2000.Transposes [1, 0, 2] S2x16002x2000
  slices_S2x16002x2000_S2x8001x2000_0_0_0 : S2x16002x2000.Slices ![0, 0, 0] S2x8001x2000
  slices_S2x16002x2000_S2x8001x2000_0_8001_0 : S2x16002x2000.Slices ![0, 8001, 0] S2x8001x2000
  reducesTo_S2048_S_d0 : S2048.ReducesTo [0] S_
  bcast_S_S2x8001x2000 : S_.BroadcastsInDim S2x8001x2000 (![] : Fin 0 → Fin S2x8001x2000.rank)
  gather_S2x34047_S2000x2048x1_S2x2000x2048_0_1_n_n_1_2_21_wf : GatherDims.WF S2x34047 S2000x2048x1 S2x2000x2048 [0] [1] [] [1] [] 2 ![2, 1]
  dot_S16002x2048_S2x2000x2048_S16002x2x2000_1_2_0_01_n_n_wf : DotDims.WF S16002x2048 S2x2000x2048 S16002x2x2000 [1] [2] [0] [0, 1] [] []

variable [Facts₀]

def gather_S2x34047_S2000x2048x1_S2x2000x2048_0_1_n_n_1_2_21 : GatherDims S2x34047 S2000x2048x1 S2x2000x2048 where
  offsetDims := [0]
  collapsedSliceDims := [1]
  operandBatchingDims := []
  startIndicesBatchingDims := []
  startIndexMap := [1]
  indexVectorDim := 2
  sliceSizes := ![2, 1]
  wf := gather_S2x34047_S2000x2048x1_S2x2000x2048_0_1_n_n_1_2_21_wf
def dot_S16002x2048_S2x2000x2048_S16002x2x2000_1_2_0_01_n_n : DotDims S16002x2048 S2x2000x2048 S16002x2x2000 where
  lhsContracting := [1]
  rhsContracting := [2]
  lhsNonContracting := [0]
  rhsNonContracting := [0, 1]
  lhsBatch := []
  rhsBatch := []
  wf := dot_S16002x2048_S2x2000x2048_S16002x2x2000_1_2_0_01_n_n_wf

class Facts : Prop extends Facts₀ where

variable [Facts]
-- ==== Proof.BodyK.lean ====
/-
  The body of the filter-bank kernel on arbitrary staging buffers.

  One call of the body owns four staging buffers: a block of 256 filter rows by 2048 taps, the row of 2048 tap
  weights, the frames of both channels (2 by 2000 frames by 2048 taps) and an output block (2 channels by 256
  rows by 2000 frames). It reads the filter block and the weights whole, scales every filter row tap by tap by
  the weights, and for each channel b stores into slab b of the output block the product of the scaled filter
  block with channel b's frames, contracted over the taps. It also loads each output slab once before storing
  into it; nothing uses those two loads, so they need the buffer only to be owned.

  What the output block holds afterwards is therefore a function of the three input buffers alone
  (`outBlk`): on channel 0 the first store's payload over slab 0 of the frames, on channel 1 the second store's
  over slab 1. The two slabs tile the output block, so nothing of its earlier contents survives. The three
  input buffers are left as they were.
-/
import proofs.«155504_j34505767256674_2_alg».proof.Proof.Gen.Kernel.Frame
import proofs.«155504_j34505767256674_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole filter block. -/
abbrev rK : Rect S256x2048 := Rect.unit (s := S256x2048) ![0, 0] S256x2048.size Gen.inb_S256x2048_S256x2048_0_0
/-- The whole row of tap weights. -/
abbrev rE : Rect S1x2048 := Rect.unit (s := S1x2048) ![0, 0] S1x2048.size Gen.inb_S1x2048_S1x2048_0_0
/-- Channel 0's frames: slab 0 of the frames buffer. -/
abbrev rF0 : Rect S2x2000x2048 := Rect.unit (s := S2x2000x2048) ![0, 0, 0] S1x2000x2048.size Gen.inb_S2x2000x2048_S1x2000x2048_0_0_0
/-- Channel 1's frames: slab 1. -/
abbrev rF1 : Rect S2x2000x2048 := Rect.unit (s := S2x2000x2048) ![1, 0, 0] S1x2000x2048.size Gen.inb_S2x2000x2048_S1x2000x2048_1_0_0
/-- Channel 0's slab of the output block. -/
abbrev rO0 : Rect S2x256x2000 := Rect.unit (s := S2x256x2000) ![0, 0, 0] S1x256x2000.size Gen.inb_S2x256x2000_S1x256x2000_0_0_0
/-- Channel 1's slab of the output block. -/
abbrev rO1 : Rect S2x256x2000 := Rect.unit (s := S2x256x2000) ![1, 0, 0] S1x256x2000.size Gen.inb_S2x256x2000_S1x256x2000_1_0_0

/-! ## What the body leaves in the output block -/

/-- The output block after the body, from the contents of the three input buffers: its two stores as pieces, the
    later one first — channel 1's slab at the second product, channel 0's at the first. -/
def outBlk (X0 : Vec F S256x2048 .f32) (X1 : Vec F S1x2048 .f32) (X2 : Vec F S2x2000x2048 .bf16) : S2x256x2000.Idx → Elt F .f32 :=
  View.canon [⟨rO1, k0_pay3 (View.ld X0 rK) (View.ld X1 rE) (View.ld X2 rF1)⟩,
              ⟨rO0, k0_pay2 (View.ld X0 rK) (View.ld X1 rE) (View.ld X2 rF0)⟩]

/-- The two slabs tile the output block (checked by evaluation), so the two stores cover it. -/
theorem cover (p1 : rO1.shape.Idx → Elt F .f32) (p0 : rO0.shape.Idx → Elt F .f32) (y : S2x256x2000.Idx) :
    ∃ pc ∈ ([⟨rO1, p1⟩, ⟨rO0, p0⟩] : List (View.Piece (Elt F) S2x256x2000 .f32)), y ∈ pc.1.set :=
  View.cover_of_tiled [⟨rO1, p1⟩, ⟨rO0, p0⟩] S1x256x2000.size (by rfl) y

/-! ## The body's triple -/

set_option maxHeartbeats 1000000 in
/-- The body on whole staging memrefs, the three inputs' at contents `X0`, `X1`, `X2` and the output's at anything,
    runs to the continuation holding the inputs' as they were and the output's at `outBlk X0 X1 X2`. -/
theorem sound_kernel (c : Dev nD) (E : Set ℕ) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S2x2000x2048 .bf16) (harg3 : arg3.IsWhole)
    (arg4 : Memref sig .tc .vmem S2x256x2000 .f32) (harg4 : arg4.IsWhole)
    (X0 : Vec F S256x2048 .f32) (X1 : Vec F S1x2048 .f32) (X2 : Vec F S2x2000x2048 .bf16) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
              ∗ owns (c : Thread nD τ) arg3 fullShare X2 ∗ owns (c : Thread nD τ) arg4 fullShare (outBlk X0 X1 X2)) -∗ K ⟨⟩))
      ⊢ wp frame (wpE (defs₀ (F := F)) Variants.none c none) E
          (cc0__conv_kernel i arg1 harg1 arg2 harg2 arg3 harg3 arg4 harg4) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-- The same at the staging buffers a point may be on — slot `s0` of the filter block's two, the one buffer of the
    weights, the one of the frames, slot `s3` of the output block's two — the output's holding any contents `X3`. -/
theorem sound_body (c : Dev nD) (E : Set ℕ) (i : grid0.Coords) (s0 : Fin 2) (s1 : Fin 1) (s2 : Fin 1) (s3 : Fin 2)
    (X0 : Vec F S256x2048 .f32) (X1 : Vec F S1x2048 .f32) (X2 : Vec F S2x2000x2048 .bf16) (X3 : S2x256x2000.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (outBlk X0 X1 X2)) -∗ K ⟨⟩))
      ⊢ wp frame (wpE (defs₀ (F := F)) Variants.none c none) E
          (cc0__conv_kernel i (stage0_0 s0) (Gen.hstage0_0 s0) (stage0_1 s1) (Gen.hstage0_1 s1) (stage0_2 s2) (Gen.hstage0_2 s2)
            (stage0_3 s3) (Gen.hstage0_3 s3)) K := by
  iintro ⟨⟨H0, H1, H2, H3⟩, Hk⟩
  iapply (sound_kernel c E i _ _ _ _ _ _ _ _ X0 X1 X2 K)
  isplitl [H0]; · iexact H0
  isplitl [H1]; · iexact H1
  isplitl [H2]; · iexact H2
  isplitl [H3]; · iexists X3; iexact H3
  iexact Hk

end Cert.Kernel.Body

end
-- ==== Proof.KernelFrame.lean ====
/-
  The word-level kernel's frame. Nothing here says what the result holds: the proof data are RELATIONAL and say of every
  staging buffer only that the body hands it back at some contents — all the frame needs, since nothing the body does
  depends on the words it reads (no branch, no address is computed from them). The pipeline's input array is never
  written, the other two arguments are touched by no window and by no host line, so all three end as they began.
-/
import proofs.«155504_j34505767256674_2_alg».proof.Proof.Gen.Kernel.Frame
import proofs.«155504_j34505767256674_2_alg».proof.Proof.Gen.Kernel.Skeleton
import proofs.«155504_j34505767256674_2_alg».proof.Proof.BodyK
import proofs.«155504_j34505767256674_2_alg».proof.Defs
import Idealize.ShloMosaic.Lib.Pipeline.FrameSuffix
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a staging buffer,
    nothing; the class invariant; full shares; nothing owed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The buffers the two host lines after the region write: the two results. -/
def T0 : Finset (Ref sig .tc) := {main_v27, main_v28}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The body obligation: handed the four current staging buffers at any contents, the body runs and hands them back —
    the three inputs as they were, the output block at what its two stores wrote. Of these the relation keeps nothing. -/
theorem body_obligation (c : Dev nD) : (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (Cert.Kernel.Body.sound_body (F := F) c Set.univ (grid0.coords t) (cfg0.slots t 0) (cfg0.slots t 1) (cfg0.slots t 2)
    (cfg0.slots t 3) (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (Cert.Kernel.Body.outBlk (Y 0) (Y 1) (Y 2)); isplitr; · ipureintro; trivial
    iexact H3

set_option backward.isDefEq.respectTransparency.types false in
/-- Every weakly fair execution of @main terminates, nothing faulting; the pipeline's arrays end at contents the
    relational data allow, every other unscoped buffer but the two results at its contents at the region's entry. -/
theorem run_main : θ_run defs (onTc (τ := τ) (main (F := F))) (s₀ m ρ)
    (Pipeline.RDat.FramePostR cfg0 (rdat m) T0 (Gen.V m)) :=
  Pipeline.RDat.θ_run_frame_around_T cfgs (0 : Fin 1) launch0 defs₀ Variants.none (rdat m) T0 m ρ main
    (hbody := fun c => body_obligation m c) (hshare := fun c => (rdat m c).share_full fun _ => rfl)
    (howed := fun _ _ => rfl)
    (V₀ := Gen.V0 m) (opss := [hostOps1]) (hsub := sfx_sub) (hfresh := sfx_fresh) (hkeep := sfx_keeps) (hT := sfx_writes)
    (hmain := Gen.hmain m Variants.none) (hA := fun _ _ => rfl) (hΦ := fun _ _ => rfl)

/-- THE FRAME of the word-level kernel: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans (Gen.V_main_arg0 m c),
     ((congrFun ((rdat m c).ArrAt_in (0 : Fin 4) rfl _) _).mp ((h c).1 0)).trans (Gen.V_main_arg1 m c),
     ((h c).2 main_arg2 (Finset.mem_sdiff.mpr ⟨Pipeline.mem_restRefs_of main_arg2 (by decide) (by decide), by decide⟩)).trans (Gen.V_main_arg2 m c)⟩)
    (run_main m ρ)

end Cert.Kernel.FrameProof

end
-- ==== Proof.Body.lean ====
/-
  The body of the filter-bank kernel on arbitrary staging buffers.

  One call of the body owns four staging buffers: a block of 256 filter rows by 2048 taps, the row of 2048 tap
  weights, the frames of both channels (2 by 2000 frames by 2048 taps) and an output block (2 channels by 256
  rows by 2000 frames). It reads the filter block and the weights whole, scales every filter row tap by tap by
  the weights, and for each channel b stores into slab b of the output block the product of the scaled filter
  block with channel b's frames, contracted over the taps. It also loads each output slab once before storing
  into it; nothing uses those two loads, so they need the buffer only to be owned.

  What the output block holds afterwards is therefore a function of the three input buffers alone
  (`outBlk`): on channel 0 the first store's payload over slab 0 of the frames, on channel 1 the second store's
  over slab 1. The two slabs tile the output block, so nothing of its earlier contents survives. The three
  input buffers are left as they were.
-/
import proofs.«155504_j34505767256674_2_alg».proof.Proof.Gen.KernelIdeal.Frame
import proofs.«155504_j34505767256674_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole filter block. -/
abbrev rK : Rect S256x2048 := Rect.unit (s := S256x2048) ![0, 0] S256x2048.size Gen.inb_S256x2048_S256x2048_0_0
/-- The whole row of tap weights. -/
abbrev rE : Rect S1x2048 := Rect.unit (s := S1x2048) ![0, 0] S1x2048.size Gen.inb_S1x2048_S1x2048_0_0
/-- Channel 0's frames: slab 0 of the frames buffer. -/
abbrev rF0 : Rect S2x2000x2048 := Rect.unit (s := S2x2000x2048) ![0, 0, 0] S1x2000x2048.size Gen.inb_S2x2000x2048_S1x2000x2048_0_0_0
/-- Channel 1's frames: slab 1. -/
abbrev rF1 : Rect S2x2000x2048 := Rect.unit (s := S2x2000x2048) ![1, 0, 0] S1x2000x2048.size Gen.inb_S2x2000x2048_S1x2000x2048_1_0_0
/-- Channel 0's slab of the output block. -/
abbrev rO0 : Rect S2x256x2000 := Rect.unit (s := S2x256x2000) ![0, 0, 0] S1x256x2000.size Gen.inb_S2x256x2000_S1x256x2000_0_0_0
/-- Channel 1's slab of the output block. -/
abbrev rO1 : Rect S2x256x2000 := Rect.unit (s := S2x256x2000) ![1, 0, 0] S1x256x2000.size Gen.inb_S2x256x2000_S1x256x2000_1_0_0

/-! ## What the body leaves in the output block -/

/-- The output block after the body, from the contents of the three input buffers: its two stores as pieces, the
    later one first — channel 1's slab at the second product, channel 0's at the first. -/
def outBlk (X0 : Vec F S256x2048 .f32) (X1 : Vec F S1x2048 .f32) (X2 : Vec F S2x2000x2048 .bf16) : S2x256x2000.Idx → Elt F .f32 :=
  View.canon [⟨rO1, k0_pay3 (View.ld X0 rK) (View.ld X1 rE) (View.ld X2 rF1)⟩,
              ⟨rO0, k0_pay2 (View.ld X0 rK) (View.ld X1 rE) (View.ld X2 rF0)⟩]

/-- The two slabs tile the output block (checked by evaluation), so the two stores cover it. -/
theorem cover (p1 : rO1.shape.Idx → Elt F .f32) (p0 : rO0.shape.Idx → Elt F .f32) (y : S2x256x2000.Idx) :
    ∃ pc ∈ ([⟨rO1, p1⟩, ⟨rO0, p0⟩] : List (View.Piece (Elt F) S2x256x2000 .f32)), y ∈ pc.1.set :=
  View.cover_of_tiled [⟨rO1, p1⟩, ⟨rO0, p0⟩] S1x256x2000.size (by rfl) y

/-! ## The body's triple -/

set_option maxHeartbeats 1000000 in
/-- The body on whole staging memrefs, the three inputs' at contents `X0`, `X1`, `X2` and the output's at anything,
    runs to the continuation holding the inputs' as they were and the output's at `outBlk X0 X1 X2`. -/
theorem sound_kernel (c : Dev nD) (E : Set ℕ) (i : grid0.Coords)
    (arg1 : Memref sig .tc .vmem S256x2048 .f32) (harg1 : arg1.IsWhole)
    (arg2 : Memref sig .tc .vmem S1x2048 .f32) (harg2 : arg2.IsWhole)
    (arg3 : Memref sig .tc .vmem S2x2000x2048 .bf16) (harg3 : arg3.IsWhole)
    (arg4 : Memref sig .tc .vmem S2x256x2000 .f32) (harg4 : arg4.IsWhole)
    (X0 : Vec F S256x2048 .f32) (X1 : Vec F S1x2048 .f32) (X2 : Vec F S2x2000x2048 .bf16) (K : PUnit → sProp 𝕄) :
    iprop(owns (c : Thread nD τ) arg1 fullShare X0 ∗ owns (c : Thread nD τ) arg2 fullShare X1
        ∗ owns (c : Thread nD τ) arg3 fullShare X2 ∗ (∃ d, owns (c : Thread nD τ) arg4 fullShare d)
        ∗ (iprop(owns (c : Thread nD τ) arg1 fullShare X0 ∗ owns (c : Thread nD τ) arg2 fullShare X1
              ∗ owns (c : Thread nD τ) arg3 fullShare X2 ∗ owns (c : Thread nD τ) arg4 fullShare (outBlk X0 X1 X2)) -∗ K ⟨⟩))
      ⊢ wp frame (wpE (defs₀ (F := F)) Variants.none c none) E
          (cc0__conv_kernel i arg1 harg1 arg2 harg2 arg3 harg3 arg4 harg4) K := by
  simp only [cc0__conv_kernel_eq_skeleton]; unfold cc0__conv_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover _ _)

/-- The same at the staging buffers a point may be on — slot `s0` of the filter block's two, the one buffer of the
    weights, the one of the frames, slot `s3` of the output block's two — the output's holding any contents `X3`. -/
theorem sound_body (c : Dev nD) (E : Set ℕ) (i : grid0.Coords) (s0 : Fin 2) (s1 : Fin 1) (s2 : Fin 1) (s3 : Fin 2)
    (X0 : Vec F S256x2048 .f32) (X1 : Vec F S1x2048 .f32) (X2 : Vec F S2x2000x2048 .bf16) (X3 : S2x256x2000.Idx → Elt F .f32)
    (K : PUnit → sProp 𝕄) :
    iprop((owns (c : Thread nD τ) (stage0_0 s0) fullShare X0 ∗ owns (c : Thread nD τ) (stage0_1 s1) fullShare X1
            ∗ owns (c : Thread nD τ) (stage0_2 s2) fullShare X2 ∗ owns (c : Thread nD τ) (stage0_3 s3) fullShare X3)
          ∗ (iprop(owns (c : Thread nD τ) (stage0_0 s0) fullShare X0 ∗ owns (c : Thread nD τ) (stage0_1 s1) fullShare X1
                  ∗ owns (c : Thread nD τ) (stage0_2 s2) fullShare X2
                  ∗ owns (c : Thread nD τ) (stage0_3 s3) fullShare (outBlk X0 X1 X2)) -∗ K ⟨⟩))
      ⊢ wp frame (wpE (defs₀ (F := F)) Variants.none c none) E
          (cc0__conv_kernel i (stage0_0 s0) (Gen.hstage0_0 s0) (stage0_1 s1) (Gen.hstage0_1 s1) (stage0_2 s2) (Gen.hstage0_2 s2)
            (stage0_3 s3) (Gen.hstage0_3 s3)) K := by
  iintro ⟨⟨H0, H1, H2, H3⟩, Hk⟩
  iapply (sound_kernel c E i _ _ _ _ _ _ _ _ X0 X1 X2 K)
  isplitl [H0]; · iexact H0
  isplitl [H1]; · iexact H1
  isplitl [H2]; · iexact H2
  isplitl [H3]; · iexists X3; iexact H3
  iexact Hk

end Cert.KernelIdeal.Body

end
-- ==== Proof.KernelIdealFrame.lean ====
/-
  The idealized kernel's frame, by the argument of the word-level kernel's. Nothing here says what the result holds: the proof data are RELATIONAL and say of every
  staging buffer only that the body hands it back at some contents — all the frame needs, since nothing the body does
  depends on the words it reads (no branch, no address is computed from them). The pipeline's input array is never
  written, the other two arguments are touched by no window and by no host line, so all three end as they began.
-/
import proofs.«155504_j34505767256674_2_alg».proof.Proof.Gen.KernelIdeal.Frame
import proofs.«155504_j34505767256674_2_alg».proof.Proof.Gen.KernelIdeal.Skeleton
import proofs.«155504_j34505767256674_2_alg».proof.Proof.Body
import proofs.«155504_j34505767256674_2_alg».proof.Defs
import Idealize.ShloMosaic.Lib.Pipeline.FrameSuffix
import Idealize.ShloMosaic.Lib.Tactic

set_option maxRecDepth 16384

noncomputable section

namespace Cert.KernelIdeal.FrameProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; of what the body leaves in a staging buffer,
    nothing; the class invariant; full shares; nothing owed. -/
def rdat (c : Dev nD) : RDat τ (Elt F) Unit ℕ (UR sig nD τ) ℕ cfg0 c where
  A w := Gen.V m c (Pipeline.arrRef spec0 w)
  after _ _ _ _ := True
  Φ _ := Pipeline.ΦA spec0 c
  q _ := fullShare
  owed _ := 0

/-- The buffers the two host lines after the region write: the two results. -/
def T0 : Finset (Ref sig .tc) := {main_v27, main_v28}

theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- The body obligation: handed the four current staging buffers at any contents, the body runs and hands them back —
    the three inputs as they were, the output block at what its two stores wrote. Of these the relation keeps nothing. -/
theorem body_obligation (c : Dev nD) : (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (Cert.KernelIdeal.Body.sound_body (F := F) c Set.univ (grid0.coords t) (cfg0.slots t 0) (cfg0.slots t 1) (cfg0.slots t 2)
    (cfg0.slots t 3) (Y 0) (Y 1) (Y 2) (Y 3) _)
  isplitl [H0 H1 H2 H3]
  · isplitl [H0]
    · iexact H0
    isplitl [H1]
    · iexact H1
    isplitl [H2]
    · iexact H2
    · iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  · iexists (Cert.KernelIdeal.Body.outBlk (Y 0) (Y 1) (Y 2)); isplitr; · ipureintro; trivial
    iexact H3

set_option backward.isDefEq.respectTransparency.types false in
/-- Every weakly fair execution of @main terminates, nothing faulting; the pipeline's arrays end at contents the
    relational data allow, every other unscoped buffer but the two results at its contents at the region's entry. -/
theorem run_main : θ_run defs (onTc (τ := τ) (main (F := F))) (s₀ m ρ)
    (Pipeline.RDat.FramePostR cfg0 (rdat m) T0 (Gen.V m)) :=
  Pipeline.RDat.θ_run_frame_around_T cfgs (0 : Fin 1) launch0 defs₀ Variants.none (rdat m) T0 m ρ main
    (hbody := fun c => body_obligation m c) (hshare := fun c => (rdat m c).share_full fun _ => rfl)
    (howed := fun _ _ => rfl)
    (V₀ := Gen.V0 m) (opss := [hostOps1]) (hsub := sfx_sub) (hfresh := sfx_fresh) (hkeep := sfx_keeps) (hT := sfx_writes)
    (hmain := Gen.hmain m Variants.none) (hA := fun _ _ => rfl) (hΦ := fun _ _ => rfl)

/-- THE FRAME of the idealized kernel: the three arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_arg0 (Finset.mem_sdiff.mpr ⟨Pipeline.mem_restRefs_of main_arg0 (by decide) (by decide), by decide⟩)).trans (Gen.V_main_arg0 m c),
     ((congrFun ((rdat m c).ArrAt_in (0 : Fin 4) rfl _) _).mp ((h c).1 0)).trans (Gen.V_main_arg1 m c),
     ((h c).2 main_arg2 (Finset.mem_sdiff.mpr ⟨Pipeline.mem_restRefs_of main_arg2 (by decide) (by decide), by decide⟩)).trans (Gen.V_main_arg2 m c)⟩)
    (run_main m ρ)

end Cert.KernelIdeal.FrameProof

end
-- ==== Proof.Data.lean ====
/-
  The proof data of the filter-bank kernel's one pipeline, at exact extended-real arithmetic.

  The grid has 63 points; point `t` works on filter rows `256 t ‥ 256 t + 255`. The filter bank has 16002 rows, so
  the last point's block overhangs it: only 130 of its 256 rows are rows of the array. After the body at point `t`
  the four staging buffers hold:
  * the filter block: the array's rows of the block, and the zero word on the rows past the array's end (a word
    this proof picks; nothing the pipeline moves ever reads it);
  * the tap weights: the whole weights row;
  * the frames: both channels' frames, whole;
  * the output block: the body's result `Body.outBlk` of those three.
  The arrays are the contents the region finds; the invariant is the class's (the scoped rest and the generator
  register, untouched); nothing is owed; every share is full.
-/
import proofs.«155504_j34505767256674_2_alg».proof.Proof.Body
import Idealize.ShloMosaic.PureOps.Ideal

noncomputable section

namespace Cert.KernelIdeal.Data

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window)

variable (m : (ℓ : Loc nD τ sig) → Buf (Elt Ideal) ℓ)

/-- The filter block at point `t` as a whole staging buffer: the array's rows of the block where the block lies
    inside the array, the zero word on the rows past its end. -/
def kblk (c : Dev nD) (t : Fin cfg0.N) : S256x2048.Idx → Elt Ideal .f32 :=
  win0_0.fill (grid0.coords t) (fun _ => (0 : EReal)) (Gen.iblk m c 0 t)

/-- The proof data of the one pipeline on core `c`. -/
def dats (_ : Fin 1) (c : Dev nD) : Dat τ (Elt Ideal) Unit ℕ (UR sig nD τ) ℕ cfg0 c where
  A w := Gen.V m c (Pipeline.arrRef spec0 w)
  after w t := match w with
    | ⟨0, _⟩ => kblk m c t
    | ⟨1, _⟩ => Gen.iblk m c 1 t
    | ⟨2, _⟩ => Gen.iblk m c 2 t
    | ⟨3, _⟩ => Body.outBlk (kblk m c t) (Gen.iblk m c 1 t) (Gen.iblk m c 2 t)
  Φ _ := Pipeline.ΦA spec0 c
  q _ := fullShare
  owed _ := 0

/-- The proof data's arrays are the region-entry contents (the definition projected, nothing unfolded). -/
theorem A_eq (c : Dev nD) (w : Fin cfg0.W) : (dats m 0 c).A w = Gen.V m c (Pipeline.arrRef spec0 w) := by
  dsimp only [dats]

/-- What the body leaves, window by window (the `match` reduced, nothing unfolded). -/
theorem after0_0 (c : Dev nD) (t : Fin cfg0.N) : (dats m 0 c).after 0 t = kblk m c t := by dsimp only [dats]
theorem after0_1 (c : Dev nD) (t : Fin cfg0.N) : (dats m 0 c).after 1 t = Gen.iblk m c 1 t := by dsimp only [dats]
theorem after0_2 (c : Dev nD) (t : Fin cfg0.N) : (dats m 0 c).after 2 t = Gen.iblk m c 2 t := by dsimp only [dats]
theorem after0_3 (c : Dev nD) (t : Fin cfg0.N) :
    (dats m 0 c).after 3 t = Body.outBlk (kblk m c t) (Gen.iblk m c 1 t) (Gen.iblk m c 2 t) := by dsimp only [dats]

end Cert.KernelIdeal.Data

end
-- ==== Proof.OutBlk.lean ====
/-
  The output block read at explicit coordinates.

  The output block has coordinates (channel, filter row inside the block, frame). Its two stores go through the two
  channel slabs, so the block at channel `b` is that channel's store: the product of the weighted filter block with
  channel `b`'s frames, at (row, frame). The whole-buffer loads read the buffers themselves, and a load through
  slab `b` of the frames buffer reads the frames of channel `b`.
-/
import proofs.«155504_j34505767256674_2_alg».proof.Proof.Body
import Idealize.ShloMosaic.Lib.ValueIdx
import Idealize.ShloMosaic.Lib.Pipeline.Value

noncomputable section

namespace Cert.KernelIdeal.Body

open Cert.KernelIdeal Cert.KernelIdeal.Gen
open Idealize.ShloMosaic Idealize.ShloMosaic.ValueIdx

variable {F : FTy → Type} [FloatOps F]

/-- A literal pair of zero offsets is the zero offset. -/
theorem zero2 : (![0, 0] : Fin 2 → Nat) = fun _ => 0 := funext fun a => by
  match a with
  | ⟨0, _⟩ => rfl
  | ⟨1, _⟩ => rfl

/-- The whole-buffer load of the filter block reads the block. -/
theorem ld_rK (X0 : Vec F S256x2048 .f32) : View.ld X0 rK = X0 :=
  View.ld_unit_zero (S := S256x2048) zero2 Gen.inb_S256x2048_S256x2048_0_0 X0
/-- The whole-buffer load of the tap weights reads them. -/
theorem ld_rE (X1 : Vec F S1x2048 .f32) : View.ld X1 rE = X1 :=
  View.ld_unit_zero (S := S1x2048) zero2 Gen.inb_S1x2048_S1x2048_0_0 X1

/-- Slab 0 of the frames buffer at (frame, tap) is the buffer at (channel 0, frame, tap). -/
theorem idx_rF0 (q : Fin 2000) (k : Fin 2048) : rF0.idx (ix3 (0 : Fin 1) q k) = ix3 (0 : Fin 2) q k := by
  funext a; apply Fin.ext
  match a with
  | ⟨0, _⟩ => rfl
  | ⟨1, _⟩ => show 0 + 1 * q.val = q.val; omega
  | ⟨2, _⟩ => show 0 + 1 * k.val = k.val; omega
/-- Slab 1 at (frame, tap) is the buffer at (channel 1, frame, tap). -/
theorem idx_rF1 (q : Fin 2000) (k : Fin 2048) : rF1.idx (ix3 (0 : Fin 1) q k) = ix3 (1 : Fin 2) q k := by
  funext a; apply Fin.ext
  match a with
  | ⟨0, _⟩ => rfl
  | ⟨1, _⟩ => show 0 + 1 * q.val = q.val; omega
  | ⟨2, _⟩ => show 0 + 1 * k.val = k.val; omega

/-- A load through slab 0 of the frames reads channel 0's frames. -/
theorem ld_rF0 (X2 : Vec F S2x2000x2048 .bf16) (q : Fin 2000) (k : Fin 2048) :
    View.ld X2 rF0 (ix3 (0 : Fin 1) q k) = X2 (ix3 (0 : Fin 2) q k) := congrArg X2 (idx_rF0 q k)
/-- A load through slab 1 reads channel 1's frames. -/
theorem ld_rF1 (X2 : Vec F S2x2000x2048 .bf16) (q : Fin 2000) (k : Fin 2048) :
    View.ld X2 rF1 (ix3 (0 : Fin 1) q k) = X2 (ix3 (1 : Fin 2) q k) := congrArg X2 (idx_rF1 q k)

/-- Slab 0 of the output block at (row, frame) is the block at (channel 0, row, frame). -/
theorem emb_rO0 (r : Fin 256) (q : Fin 2000) : rO0.emb (ix3 (0 : Fin 1) r q) = ix3 (0 : Fin 2) r q := by
  funext a; apply Fin.ext
  match a with
  | ⟨0, _⟩ => rfl
  | ⟨1, _⟩ => show 0 + 1 * r.val = r.val; omega
  | ⟨2, _⟩ => show 0 + 1 * q.val = q.val; omega
/-- Slab 1 at (row, frame) is the block at (channel 1, row, frame). -/
theorem emb_rO1 (r : Fin 256) (q : Fin 2000) : rO1.emb (ix3 (0 : Fin 1) r q) = ix3 (1 : Fin 2) r q := by
  funext a; apply Fin.ext
  match a with
  | ⟨0, _⟩ => rfl
  | ⟨1, _⟩ => show 0 + 1 * r.val = r.val; omega
  | ⟨2, _⟩ => show 0 + 1 * q.val = q.val; omega

/-- An index of channel 0 is not in channel 1's slab. -/
theorem not_mem_rO1 (r : Fin 256) (q : Fin 2000) : ix3 (0 : Fin 2) r q ∉ rO1.set := by
  rw [Rect.mem_set_unit]
  intro h
  have h0 : (1 : Nat) ≤ 0 := (h (0 : Fin 3)).1
  omega

/-- The output block on channel 1: the second store's payload, over channel 1's frames. -/
theorem outBlk_ch1 (X0 : Vec F S256x2048 .f32) (X1 : Vec F S1x2048 .f32) (X2 : Vec F S2x2000x2048 .bf16)
    (r : Fin 256) (q : Fin 2000) :
    outBlk X0 X1 X2 (ix3 (1 : Fin 2) r q) = k0_pay3 X0 X1 (View.ld X2 rF1) (ix3 (0 : Fin 1) r q) := by
  unfold outBlk
  rw [← emb_rO1 r q, View.canon_cons_emb, ld_rK, ld_rE]

/-- The output block on channel 0: the first store's payload, over channel 0's frames. -/
theorem outBlk_ch0 (X0 : Vec F S256x2048 .f32) (X1 : Vec F S1x2048 .f32) (X2 : Vec F S2x2000x2048 .bf16)
    (r : Fin 256) (q : Fin 2000) :
    outBlk X0 X1 X2 (ix3 (0 : Fin 2) r q) = k0_pay2 X0 X1 (View.ld X2 rF0) (ix3 (0 : Fin 1) r q) := by
  unfold outBlk
  rw [ld_rK, ld_rE]
  refine (View.canon_cons_of_not_mem (⟨rO1, k0_pay3 X0 X1 (View.ld X2 rF1)⟩ : View.Piece (Elt F) S2x256x2000 .f32) _
    (not_mem_rO1 r q)).trans ?_
  rw [← emb_rO0 r q]
  exact View.canon_cons_emb rO0 _ [] _

end Cert.KernelIdeal.Body

end
-- ==== Proof.Payload.lean ====
/-
  The body's arithmetic, read at one entry.

  The body forms the weighted filter block `kt (r, k) = blk (r, k) * w (0, k)` (the block of filter rows times the
  one row of per-tap weights, broadcast over the 256 rows; the change of float format is the identity on extended
  reals) and, for each of the two channels, stores the product of `kt` with that channel's frames, both contracted
  along their axis of 2048 taps, into a zero accumulator. So the stored value at row `r` and frame `t` is
  `∑ k, (blk (r, k) * w (0, k)) * frames (0, t, k)`, where `frames` is the channel's slab carrying a leading axis
  of extent one. The two stores apply the same term to the two slabs.
-/
import proofs.«155504_j34505767256674_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The weighted filter block at row `r`, tap `k`: the block's entry times the weight of tap `k`. -/
theorem pay1_apply (x0 : Vec Ideal S256x2048 .f32) (x1 : Vec Ideal S1x2048 .f32) (r : Fin 256) (k : Fin 2048) :
    Gen.k0_pay1 (F := Ideal) x0 x1 (ix2 r k) = x0 (ix2 r k) * x1 (ix2 0 k) := by
  unfold Gen.k0_pay1
  rw [truncf_apply, mulf_apply, shapeCast_self, broadcastTo_1b_ab_apply]

/-- The left operand's index at output entry `j`: its row is `j`'s row. -/
theorem lhs_row (j : S256x2000.Idx) (q : dot_S256x2048_S2000x2048_S256x2000_1_1_0_0_n_n.contr.Idx) :
    (dot_S256x2048_S2000x2048_S256x2000_1_1_0_0_n_n.lhsIdx j q 0).val = (j 0).val := by
  unfold DotDims.lhsIdx
  rw [dif_neg (show ¬(0 : Fin S256x2048.rank) ∈ dot_S256x2048_S2000x2048_S256x2000_1_1_0_0_n_n.lhsBatch by decide), dif_pos (show (0 : Fin S256x2048.rank) ∈ dot_S256x2048_S2000x2048_S256x2000_1_1_0_0_n_n.lhsNonContracting by decide)]
  rfl
/-- Its tap is the contraction index. -/
theorem lhs_tap (j : S256x2000.Idx) (q : dot_S256x2048_S2000x2048_S256x2000_1_1_0_0_n_n.contr.Idx) :
    (dot_S256x2048_S2000x2048_S256x2000_1_1_0_0_n_n.lhsIdx j q 1).val = (q ⟨0, by decide⟩).val :=
  dot_S256x2048_S2000x2048_S256x2000_1_1_0_0_n_n.lhsIdx_val_of_single rfl j q
/-- The right operand's index at output entry `j`: its row is `j`'s column. -/
theorem rhs_row (j : S256x2000.Idx) (q : dot_S256x2048_S2000x2048_S256x2000_1_1_0_0_n_n.contr.Idx) :
    (dot_S256x2048_S2000x2048_S256x2000_1_1_0_0_n_n.rhsIdx j q 0).val = (j 1).val := by
  unfold DotDims.rhsIdx
  rw [dif_neg (show ¬(0 : Fin S2000x2048.rank) ∈ dot_S256x2048_S2000x2048_S256x2000_1_1_0_0_n_n.rhsBatch by decide), dif_pos (show (0 : Fin S2000x2048.rank) ∈ dot_S256x2048_S2000x2048_S256x2000_1_1_0_0_n_n.rhsNonContracting by decide)]
  rfl
/-- Its tap is the contraction index. -/
theorem rhs_tap (j : S256x2000.Idx) (q : dot_S256x2048_S2000x2048_S256x2000_1_1_0_0_n_n.contr.Idx) :
    (dot_S256x2048_S2000x2048_S256x2000_1_1_0_0_n_n.rhsIdx j q 1).val = (q ⟨0, by decide⟩).val :=
  dot_S256x2048_S2000x2048_S256x2000_1_1_0_0_n_n.rhsIdx_val_of_single rfl j q

/-- The contraction of a [256, 2048] array with a [2000, 2048] array along their second axes, into the zero
    accumulator, at row `r` and column `t`: the sum over the 2048 taps of the products of the two rows' entries. -/
theorem matmul_rows_apply (a : FVec Ideal S256x2048 .bf16) (b : FVec Ideal S2000x2048 .bf16) (r : Fin 256) (t : Fin 2000) :
    (matmul (F := Ideal) dot_S256x2048_S2000x2048_S256x2000_1_1_0_0_n_n none a b (constant (F := Ideal) S256x2000 .f32 0x00000000#32) : FVec Ideal S256x2000 .f32) (ix2 r t)
      = ∑ k : Fin 2048, a (ix2 r k) * b (ix2 t k) := by
  refine (Ideal.matmul_constant_zero_apply dot_S256x2048_S2000x2048_S256x2000_1_1_0_0_n_n none a b (ix2 r t)).trans ?_
  rw [← Equiv.sum_comp (ValueIdx.contrEquiv1 dot_S256x2048_S2000x2048_S256x2000_1_1_0_0_n_n 2048 rfl rfl).symm]
  refine Finset.sum_congr rfl fun k _ => ?_
  have hk := ValueIdx.contrEquiv1_symm_val dot_S256x2048_S2000x2048_S256x2000_1_1_0_0_n_n 2048 rfl rfl k
  have el : dot_S256x2048_S2000x2048_S256x2000_1_1_0_0_n_n.lhsIdx (ix2 r t) ((ValueIdx.contrEquiv1 dot_S256x2048_S2000x2048_S256x2000_1_1_0_0_n_n 2048 rfl rfl).symm k) = ix2 r k := funext fun ax => Fin.ext (by
    match ax with
    | ⟨0, _⟩ => exact lhs_row _ _
    | ⟨1, _⟩ => exact (lhs_tap _ _).trans hk)
  have er : dot_S256x2048_S2000x2048_S256x2000_1_1_0_0_n_n.rhsIdx (ix2 r t) ((ValueIdx.contrEquiv1 dot_S256x2048_S2000x2048_S256x2000_1_1_0_0_n_n 2048 rfl rfl).symm k) = ix2 t k := funext fun ax => Fin.ext (by
    match ax with
    | ⟨0, _⟩ => exact rhs_row _ _
    | ⟨1, _⟩ => exact (rhs_tap _ _).trans hk)
  rw [el, er]

/-- The first store's value at row `r`, frame `t`. -/
theorem pay2_apply (x0 : Vec Ideal S256x2048 .f32) (x1 : Vec Ideal S1x2048 .f32) (x2 : Vec Ideal S1x2000x2048 .bf16) (r : Fin 256) (t : Fin 2000) :
    Gen.k0_pay2 (F := Ideal) x0 x1 x2 (ValueIdx.ix3 0 r t) = ∑ k : Fin 2048, (x0 (ValueIdx.ix2 r k) * x1 (ValueIdx.ix2 0 k)) * x2 (ValueIdx.ix3 0 t k) := by
  unfold Gen.k0_pay2
  rw [shapeCast_ab_1ab_apply, matmul_rows_apply]
  refine Finset.sum_congr rfl fun k _ => ?_
  rw [pay1_apply, shapeCast_1ab_ab_apply]

/-- The second store's value at row `r`, frame `t`: the same term, of the second channel's slab. -/
theorem pay3_apply (x0 : Vec Ideal S256x2048 .f32) (x1 : Vec Ideal S1x2048 .f32) (x2 : Vec Ideal S1x2000x2048 .bf16) (r : Fin 256) (t : Fin 2000) :
    Gen.k0_pay3 (F := Ideal) x0 x1 x2 (ValueIdx.ix3 0 r t) = ∑ k : Fin 2048, (x0 (ValueIdx.ix2 r k) * x1 (ValueIdx.ix2 0 k)) * x2 (ValueIdx.ix3 0 t k) := by
  unfold Gen.k0_pay3
  rw [shapeCast_ab_1ab_apply, matmul_rows_apply]
  refine Finset.sum_congr rfl fun k _ => ?_
  rw [pay1_apply, shapeCast_1ab_ab_apply]

end Cert.KernelIdeal.Payload

end
-- ==== Proof.Obligation.lean ====
/-
  The body's obligation at every grid point, at exact extended-real arithmetic.

  At point `t` the body is handed: the filter block's staging buffer just fetched — the rows of the block that are
  rows of the filter bank, and on the rows past the bank's end (only the last point has any) a word `d0` nothing
  names —; the tap weights and the frames, whole, as the first point fetched them; and the output block's buffer at
  anything. It leaves the first three as they were and the output block at `Body.outBlk` of them.

  The obligation states the filter block and the output block only on the rows the pipeline moves, those inside the
  arrays. The one mathematical fact is that on those rows the output block does not depend on `d0`: entry
  (channel, row r, frame) of the product is a sum over the taps of row `r` of the weighted filter block against the
  frame, and reads no other row; and a row of the output block inside the result array is a row of the filter
  block inside the filter bank (both blocks are cut at the same row: 16002 = 62 · 256 + 130).
-/
import proofs.«155504_j34505767256674_2_alg».proof.Proof.Data
import proofs.«155504_j34505767256674_2_alg».proof.Proof.OutBlk
import proofs.«155504_j34505767256674_2_alg».proof.Proof.Payload

set_option maxRecDepth 16384

noncomputable section

namespace Cert.KernelIdeal.Obligation

open Cert.KernelIdeal Cert.KernelIdeal.Gen Cert.KernelIdeal.Data
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## What the body finds in the input buffers -/

/-- The filter block's buffer, fetched at every point: the block on the rows inside the bank, `d` past its end. -/
theorem before_0 (c : Dev nD) (t : Fin cfg0.N) (d) :
    (dats m 0 c).before 0 t d = win0_0.fill (grid0.coords t) d (Gen.iblk m c 0 t) := by
  unfold Dat.before
  rw [if_pos (Gen.fetch0_0 t)]
  unfold Dat.fetched Dat.blockOf Gen.iblk
  rw [A_eq]
/-- The tap weights' buffer holds the weights at every point. -/
theorem before_1 (c : Dev nD) (t : Fin cfg0.N) (d) : (dats m 0 c).before 1 t d = Gen.iblk m c 1 t :=
  Gen.before0_1_of m (dats m 0 c) (A_eq m c 1) (after0_1 m c) t d
/-- The frames' buffer holds the frames at every point. -/
theorem before_2 (c : Dev nD) (t : Fin cfg0.N) (d) : (dats m 0 c).before 2 t d = Gen.iblk m c 2 t :=
  Gen.before0_2_of m (dats m 0 c) (A_eq m c 2) (after0_2 m c) t d

/-! ## The rows inside the arrays -/

/-- At every point the output block is cut at the row the filter block is cut at, and the filter block keeps all
    its taps (decided over the 63 points). -/
theorem cuts : ∀ t : Fin cfg0.N, win0_3.xsize (grid0.coords t) 1 = win0_0.xsize (grid0.coords t) 0
    ∧ win0_0.xsize (grid0.coords t) 1 = 2048 :=
  (by decide +kernel : ∀ t : Fin grid0.N, win0_3.xsize (grid0.coords t) 1 = win0_0.xsize (grid0.coords t) 0
    ∧ win0_0.xsize (grid0.coords t) 1 = 2048)

/-- On a row inside the bank the fetched filter block is the bank's, whatever fills the rows past the end. -/
theorem fill_row (t : Fin cfg0.N) (d d' : S256x2048.Idx → EReal) (g : (win0_0.xblock (grid0.coords t)).Idx → EReal)
    (r : Fin 256) (hr : r.val < win0_0.xsize (grid0.coords t) 0) (k : Fin 2048) :
    win0_0.fill (grid0.coords t) d g (ix2 r k) = win0_0.fill (grid0.coords t) d' g (ix2 r k) := by
  have hm : win0_0.moved (grid0.coords t) (ix2 r k) = true :=
    (win0_0.moved_iff (grid0.coords t) (ix2 r k)).mpr fun a => by
      match a with
      | ⟨0, _⟩ => exact hr
      | ⟨1, _⟩ => show k.val < win0_0.xsize (grid0.coords t) 1; rw [(cuts t).2]; exact k.isLt
  unfold Window.fill
  rw [dif_pos hm, dif_pos hm]

/-- Entry (channel, row `r`, frame) of the output block reads row `r` of the filter block only. -/
theorem outBlk_rows (X0 X0' : Vec Ideal S256x2048 .f32) (X1 : Vec Ideal S1x2048 .f32) (X2 : Vec Ideal S2x2000x2048 .bf16)
    (b : Fin 2) (r : Fin 256) (q : Fin 2000) (h : ∀ k : Fin 2048, X0 (ix2 r k) = X0' (ix2 r k)) :
    Body.outBlk X0 X1 X2 (ix3 b r q) = Body.outBlk X0' X1 X2 (ix3 b r q) := by
  match b with
  | ⟨0, _⟩ =>
    show Body.outBlk X0 X1 X2 (ix3 (0 : Fin 2) r q) = Body.outBlk X0' X1 X2 (ix3 (0 : Fin 2) r q)
    rw [Body.outBlk_ch0, Body.outBlk_ch0, Payload.pay2_apply, Payload.pay2_apply]
    exact Finset.sum_congr rfl fun k _ => by rw [h k]
  | ⟨1, _⟩ =>
    show Body.outBlk X0 X1 X2 (ix3 (1 : Fin 2) r q) = Body.outBlk X0' X1 X2 (ix3 (1 : Fin 2) r q)
    rw [Body.outBlk_ch1, Body.outBlk_ch1, Payload.pay3_apply, Payload.pay3_apply]
    exact Finset.sum_congr rfl fun k _ => by rw [h k]

/-- So at an index whose row is inside the bank, the output block is the same whatever filled the filter block's
    buffer past the bank's end. -/
theorem outBlk_fill (t : Fin cfg0.N) (d d' : S256x2048.Idx → EReal) (g : (win0_0.xblock (grid0.coords t)).Idx → EReal)
    (X1 : Vec Ideal S1x2048 .f32) (X2 : Vec Ideal S2x2000x2048 .bf16) (y : S2x256x2000.Idx)
    (hy : (y 1).val < win0_0.xsize (grid0.coords t) 0) :
    Body.outBlk (win0_0.fill (grid0.coords t) d g) X1 X2 y = Body.outBlk (win0_0.fill (grid0.coords t) d' g) X1 X2 y := by
  obtain ⟨b, r, q, rfl⟩ : ∃ (b : Fin 2) (r : Fin 256) (q : Fin 2000), y = ix3 b r q := ⟨y 0, y 1, y 2, eq_ix3 y⟩
  exact outBlk_rows _ _ X1 X2 b r q fun k => fill_row t d d' g r hy k

/-- A block filled with the moved part of contents `X` reads `X` at an index the transfer moves (any window). -/
theorem fill_cut_of_moved {sg : RefSig} {G : Pipeline.Grid} (w : Pipeline.Window sg G) {α : Type} (i : G.Coords)
    (d X : w.block.Idx → α) {y : w.block.Idx} (h : w.moved i y = true) : w.fill i d (w.cut i X) y = X y := by
  unfold Pipeline.Window.fill
  rw [dif_pos h]

/-- The output block the body leaves, filled on the rows the write-back moves with those rows of the block the proof
    data names, is itself: the two agree on those rows. -/
theorem fill_outBlk (t : Fin cfg0.N) (d d' : S256x2048.Idx → EReal) (g : (win0_0.xblock (grid0.coords t)).Idx → EReal)
    (X1 : Vec Ideal S1x2048 .f32) (X2 : Vec Ideal S2x2000x2048 .bf16) :
    win0_3.fill (grid0.coords t) (Body.outBlk (win0_0.fill (grid0.coords t) d g) X1 X2)
        (win0_3.cut (grid0.coords t) (Body.outBlk (win0_0.fill (grid0.coords t) d' g) X1 X2))
      = Body.outBlk (win0_0.fill (grid0.coords t) d g) X1 X2 := by
  funext y
  by_cases h : win0_3.moved (grid0.coords t) y = true
  · refine (fill_cut_of_moved win0_3 (grid0.coords t) _ _ h).trans ?_
    refine outBlk_fill t d' d g X1 X2 y ?_
    rw [← (cuts t).1]
    exact (win0_3.moved_iff (grid0.coords t) y).mp h 1
  · exact win0_3.fill_of_not_moved (grid0.coords t) _ _ h

/-! ## The obligation -/

/-- The library's body obligation at every point: the three inputs' buffers arrive at their blocks (the filter
    block filled out with `d0` past the bank's end), the output's at anything; `Body.sound_kernel` leaves the inputs
    in place and the output at `Body.outBlk` of them, which on the rows inside the arrays is what the proof data
    names (`fill_outBlk`; a filled block cut back is the block). -/
theorem body_obligation (c : Dev nD) :
    BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  rw [before_0 m c t d0, before_1 m c t d1, before_2 m c t d2]
  iapply (Body.sound_kernel (F := Ideal) c Set.univ (grid0.coords t)
    (win0_0.stage (cfg0.slots t 0)) (Gen.hstage0_0 ((cfg0.slots t 0).cast Gen.nbuf0_0))
    (win0_1.stage (cfg0.slots t 1)) (Gen.hstage0_1 ((cfg0.slots t 1).cast Gen.nbuf0_1))
    (win0_2.stage (cfg0.slots t 2)) (Gen.hstage0_2 ((cfg0.slots t 2).cast Gen.nbuf0_2))
    (win0_3.stage (cfg0.slots t 3)) (Gen.hstage0_3 ((cfg0.slots t 3).cast Gen.nbuf0_3))
    (win0_0.fill (grid0.coords t) d0 (Gen.iblk m c 0 t)) (Gen.iblk m c 1 t) (Gen.iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have hk : win0_0.cut (grid0.coords t) (kblk m c t) = Gen.iblk m c 0 t := win0_0.cut_fill _ _ _
  have ho : win0_3.fill (grid0.coords t)
        (Body.outBlk (win0_0.fill (grid0.coords t) d0 (Gen.iblk m c 0 t)) (Gen.iblk m c 1 t) (Gen.iblk m c 2 t))
        (win0_3.cut (grid0.coords t) (Body.outBlk (kblk m c t) (Gen.iblk m c 1 t) (Gen.iblk m c 2 t)))
      = Body.outBlk (win0_0.fill (grid0.coords t) d0 (Gen.iblk m c 0 t)) (Gen.iblk m c 1 t) (Gen.iblk m c 2 t) :=
    fill_outBlk t d0 (fun _ => (0 : EReal)) (Gen.iblk m c 0 t) (Gen.iblk m c 1 t) (Gen.iblk m c 2 t)
  isplitl [H0]
  · iexists d0
    change _ ⊢ owns (c : Thread nD τ) (stage0_0 (cfg0.slots t 0)) fullShare
      (win0_0.fill (grid0.coords t) d0 (win0_0.cut (grid0.coords t) (kblk m c t)))
    rw [hk]
  isplitl [H1]; · iexact H1
  isplitl [H2]; · iexact H2
  · iexists Body.outBlk (win0_0.fill (grid0.coords t) d0 (Gen.iblk m c 0 t)) (Gen.iblk m c 1 t) (Gen.iblk m c 2 t)
    change _ ⊢ owns (c : Thread nD τ) (stage0_3 (cfg0.slots t 3)) fullShare
      (win0_3.fill (grid0.coords t)
        (Body.outBlk (win0_0.fill (grid0.coords t) d0 (Gen.iblk m c 0 t)) (Gen.iblk m c 1 t) (Gen.iblk m c 2 t))
        (win0_3.cut (grid0.coords t) (Body.outBlk (kblk m c t) (Gen.iblk m c 1 t) (Gen.iblk m c 2 t))))
    rw [ho]

end Cert.KernelIdeal.Obligation

end
-- ==== Proof.RunIdeal.lean ====
/-
  The kernel's run at exact extended-real arithmetic, with the result array named.

  From any memory whose semaphore counters are zero, every weakly fair execution of the program terminates without
  a fault, and in every final state each array of the pipeline holds what the library computes from the proof data
  `Data.dats` — the result array the 63 write-backs, in point order, of the rows inside the array of what the body
  left in the output block's buffer — and every other buffer what the two slices after the region leave from that.
-/
import proofs.«155504_j34505767256674_2_alg».proof.Proof.Obligation

noncomputable section

namespace Cert.KernelIdeal.RunIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

set_option backward.isDefEq.respectTransparency.types false in
/-- The run around the region: the host lines before it, the pipeline under the body's obligation, the two slices
    after it. -/
theorem run_ideal : θ_run defs (onTc (τ := τ) (main (F := Ideal))) (s₀ m ρ)
    (Pipeline.FramePost cfgs (Data.dats m) 0 (Pipeline.afterTail₀ cfgs (Data.dats m) 0 (Gen.V0 m) [hostOps1])) :=
  Pipeline.θ_run_frame_around cfgs (Data.dats m) (0 : Fin 1) Gen.launch0 defs₀ Variants.none m ρ main
    (hbody := Obligation.body_obligation m) (hshare := fun c => (Data.dats m 0 c).share_full fun _ => rfl)
    (howed := fun _ _ => rfl) (V₀ := Gen.V0 m) (opss := [hostOps1]) (hsub := Gen.sfx_sub) (hfresh := Gen.sfx_fresh)
    (hkeep := Gen.sfx_keeps) (hmain := Gen.hmain m Variants.none) (hA := Data.A_eq m) (hΦ := fun _ _ => rfl)

/-- info: 'Cert.KernelIdeal.RunIdeal.run_ideal' depends on axioms: [propext, Classical.choice, Quot.sound] -/
#guard_msgs in #print axioms run_ideal

end Cert.KernelIdeal.RunIdeal

end
-- ==== Proof.OutSpec.lean ====
/-
  The region's result as one function of the three arrays its windows read: filter row `f` (axis 1 of the result)
  against frame `t` of channel `b`, tap by tap, each tap weighted by the one row of weights.
-/
import Idealize.ShloMosaic.PureOps.Ideal
import Idealize.ShloMosaic.Lib.ValueIdx

noncomputable section

namespace Cert.Spec

open Idealize.ShloMosaic Idealize.ShloMosaic.ValueIdx

/-- `outOf K E X (b, f, t) = ∑ₖ (K (f, k) · E (0, k)) · X (b, t, k)`. -/
def outOf (K : (⟨2, ![16002, 2048]⟩ : Shape).Idx → EReal) (E : (⟨2, ![1, 2048]⟩ : Shape).Idx → EReal)
    (X : (⟨3, ![2, 2000, 2048]⟩ : Shape).Idx → EReal) : (⟨3, ![2, 16002, 2000]⟩ : Shape).Idx → EReal :=
  fun j => ∑ k : Fin 2048, (K (ix2 (j 1) k) * E (ix2 0 k)) * X (ix3 (j 0) (j 2) k)

end Cert.Spec

end
-- ==== Proof.OutArray.lean ====
/-
  From blocks to the array: what the region leaves in its result.

  The grid has 63 points. Point `t` computes the block of the result made of both channels, the filter rows
  `256 t ‥ 256 t + 255` and all 2000 frames, from the block of those filter rows, the one row of tap weights and
  the frames of both channels, and writes it back. The filter bank has 16002 = 62 · 256 + 130 rows, so the last
  point's blocks overhang the arrays: the fetch fills only the first 130 rows of the filter block (the proof data
  fills the rest with zeros), and the write-back moves only the first 130 rows of the result block.

  Entry `(b, r, q)` of the result block is `∑ k, (filter block (r, k) · weights (0, k)) · frames (b, q, k)`: it reads
  row `r` of the filter block only. For a row the write-back moves, that row lies inside the filter bank and is row
  `256 t + r` of it. So what point `t` writes back is its block of ONE function of the three arrays,
  `Spec.outOf` — entry `(b, f, q) ↦ ∑ k, (filter (f, k) · weights (0, k)) · frames (b, q, k)` — and since filter row
  `f` lies in the block of point `f / 256 < 63`, the blocks cover the result, which therefore ends holding `Spec.outOf`
  of the three arrays as the region finds them.
-/
import proofs.«155504_j34505767256674_2_alg».proof.Proof.Data
import proofs.«155504_j34505767256674_2_alg».proof.Proof.Payload
import proofs.«155504_j34505767256674_2_alg».proof.Proof.OutBlk
import proofs.«155504_j34505767256674_2_alg».proof.Proof.OutSpec
import Idealize.ShloMosaic.Lib.Pipeline.Value
import Idealize.ShloMosaic.Lib.ValueIdx

set_option maxRecDepth 16384

noncomputable section

namespace Cert.KernelIdeal.OutArray

open Cert.KernelIdeal Cert.KernelIdeal.Gen Idealize.ShloMosaic Idealize.ShloMosaic.TcCoe Idealize.SL.Sem
open Idealize.ShloMosaic.ValueIdx
open Idealize.ShloMosaic.Pipeline (Dat)

/-! ## The index maps, decided over the 63 points -/

/-- The result's window at point `t`: block index `(0, t, 0)`; the transfer moves both channels, all 2000 frames, and
    256 rows — 130 at the last point, where the block overhangs the array. -/
theorem idx_out : ∀ t : Fin cfg0.N,
    win0_3.index t (0 : Fin 3) = 0 ∧ win0_3.index t (1 : Fin 3) = t.val ∧ win0_3.index t (2 : Fin 3) = 0
    ∧ win0_3.xsize (grid0.coords t) (0 : Fin 3) = 2
    ∧ win0_3.xsize (grid0.coords t) (1 : Fin 3) = (if t.val < 62 then 256 else 130)
    ∧ win0_3.xsize (grid0.coords t) (2 : Fin 3) = 2000 :=
  (by decide +kernel : ∀ t : Fin grid0.N, _)

/-- The filter bank's window at point `t`: block index `(t, 0)`, cut like the result's; the weights' and the frames'
    windows are the whole arrays at every point. -/
theorem idx_in : ∀ t : Fin cfg0.N,
    win0_0.index t (0 : Fin 2) = t.val ∧ win0_0.index t (1 : Fin 2) = 0
    ∧ win0_0.xsize (grid0.coords t) (0 : Fin 2) = (if t.val < 62 then 256 else 130)
    ∧ win0_0.xsize (grid0.coords t) (1 : Fin 2) = 2048
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0 :=
  (by decide +kernel : ∀ t : Fin grid0.N, _)

/-- The result block's offsets in the array: rows from `256 t`, channels and frames from 0. -/
theorem off_out : ∀ t : Fin cfg0.N,
    win0_3.index t (0 : Fin 3) * win0_3.size (0 : Fin 3) = 0 ∧ win0_3.index t (1 : Fin 3) * win0_3.size (1 : Fin 3) = 256 * t.val
    ∧ win0_3.index t (2 : Fin 3) * win0_3.size (2 : Fin 3) = 0 :=
  (by decide +kernel : ∀ t : Fin grid0.N, _)

/-! ## The input blocks read at an entry, over any contents of the arrays -/

/-- The weights' block is the weights' row. -/
theorem read_weights (A : S1x2048.Idx → EReal) (t : Fin cfg0.N) (k : Fin 2048) :
    (((cfg0.win 1).blk t).view.read (Elt Ideal) A : S1x2048.Idx → EReal) (ix2 0 k) = A (ix2 0 k) := by
  obtain ⟨-, -, -, -, e0, e1, -⟩ := idx_in t
  rw [View.read_apply]
  show A _ = A _
  refine congrArg A (funext fun a => Fin.ext ?_)
  match a with
  | ⟨0, _⟩ => show win0_1.index t 0 * 1 + 1 * 0 = 0; rw [e0]
  | ⟨1, _⟩ => show win0_1.index t 1 * 2048 + 1 * k.val = k.val; rw [e1]; omega

/-- The frames' block is the frames array. -/
theorem read_frames (A : S2x2000x2048.Idx → EReal) (t : Fin cfg0.N) (b : Fin 2) (q : Fin 2000) (k : Fin 2048) :
    (((cfg0.win 2).blk t).view.read (Elt Ideal) A : S2x2000x2048.Idx → EReal) (ix3 b q k) = A (ix3 b q k) := by
  obtain ⟨-, -, -, -, -, -, e0, e1, e2⟩ := idx_in t
  rw [View.read_apply]
  show A _ = A _
  refine congrArg A (funext fun a => Fin.ext ?_)
  match a with
  | ⟨0, _⟩ => show win0_2.index t 0 * 2 + 1 * b.val = b.val; rw [e0]; omega
  | ⟨1, _⟩ => show win0_2.index t 1 * 2000 + 1 * q.val = q.val; rw [e1]; omega
  | ⟨2, _⟩ => show win0_2.index t 2 * 2048 + 1 * k.val = k.val; rw [e2]; omega

/-- Row `r` of the filter block, filled out with zeros past the array's end, is row `256 t + r` of the filter bank when
    the fetch moves that row. -/
theorem read_filter (A : S16002x2048.Idx → EReal) (t : Fin cfg0.N) (r : Fin 256) (k : Fin 2048) (f : Fin 16002)
    (hr : r.val < (if t.val < 62 then 256 else 130)) (hf : f.val = 256 * t.val + r.val) :
    win0_0.fill (grid0.coords t) (fun _ => (0 : EReal)) (((cfg0.win 0).blk t).view.read (Elt Ideal) A) (ix2 r k) = A (ix2 f k) := by
  obtain ⟨e0, e1, x0, x1, -⟩ := idx_in t
  have hmv : win0_0.moved (grid0.coords t) (ix2 r k) = true := (win0_0.moved_iff _ _).mpr fun a => by
    match a with
    | ⟨0, _⟩ => show r.val < win0_0.xsize (grid0.coords t) 0; rw [x0]; exact hr
    | ⟨1, _⟩ => show k.val < win0_0.xsize (grid0.coords t) 1; rw [x1]; exact k.isLt
  unfold Pipeline.Window.fill
  rw [dif_pos hmv, View.read_apply]
  show A _ = A _
  refine congrArg A (funext fun a => Fin.ext ?_)
  match a with
  | ⟨0, _⟩ => show win0_0.index t 0 * 256 + 1 * r.val = f.val; rw [e0, hf]; omega
  | ⟨1, _⟩ => show win0_0.index t 1 * 2048 + 1 * k.val = k.val; rw [e1]; omega

/-! ## The result block at an entry -/

/-- Entry `(b, r, q)` of what the body leaves in the result block, from the contents of the three input buffers: the
    store of channel `b`, which is the contraction of the weighted row `r` with frame `q` of channel `b`. -/
theorem outBlk_apply (X0 : Vec Ideal S256x2048 .f32) (X1 : Vec Ideal S1x2048 .f32) (X2 : Vec Ideal S2x2000x2048 .bf16)
    (b : Fin 2) (r : Fin 256) (q : Fin 2000) :
    Body.outBlk (F := Ideal) X0 X1 X2 (ix3 b r q) = ∑ k : Fin 2048, (X0 (ix2 r k) * X1 (ix2 0 k)) * X2 (ix3 b q k) := by
  match b with
  | ⟨0, _⟩ =>
    refine (Body.outBlk_ch0 X0 X1 X2 r q).trans ?_
    refine (Payload.pay2_apply X0 X1 (View.ld X2 Body.rF0) r q).trans ?_
    exact Finset.sum_congr rfl fun k _ => congrArg (fun z => (X0 (ix2 r k) * X1 (ix2 0 k)) * z) (Body.ld_rF0 X2 q k)
  | ⟨1, _⟩ =>
    refine (Body.outBlk_ch1 X0 X1 X2 r q).trans ?_
    refine (Payload.pay3_apply X0 X1 (View.ld X2 Body.rF1) r q).trans ?_
    exact Finset.sum_congr rfl fun k _ => congrArg (fun z => (X0 (ix2 r k) * X1 (ix2 0 k)) * z) (Body.ld_rF1 X2 q k)

/-- The same with the input buffers at the arrays' blocks: for a row the fetch moves, the entry of `Spec.outOf` at
    filter row `256 t + r`. -/
theorem outBlk_at (K : S16002x2048.Idx → EReal) (E : S1x2048.Idx → EReal) (X : S2x2000x2048.Idx → EReal) (t : Fin cfg0.N)
    (b : Fin 2) (r : Fin 256) (q : Fin 2000) (f : Fin 16002)
    (hr : r.val < (if t.val < 62 then 256 else 130)) (hf : f.val = 256 * t.val + r.val) :
    Body.outBlk (F := Ideal) (win0_0.fill (grid0.coords t) (fun _ => (0 : EReal)) (((cfg0.win 0).blk t).view.read (Elt Ideal) K))
        (((cfg0.win 1).blk t).view.read (Elt Ideal) E) (((cfg0.win 2).blk t).view.read (Elt Ideal) X) (ix3 b r q)
      = Cert.Spec.outOf K E X (ix3 b f q) := by
  refine (outBlk_apply _ _ _ b r q).trans ?_
  show _ = ∑ k : Fin 2048, (K (ix2 f k) * E (ix2 0 k)) * X (ix3 b q k)
  refine Finset.sum_congr rfl fun k _ => ?_
  rw [read_filter K t r k f hr hf, read_weights E t k, read_frames X t b q k]

/-- The same at any entry `y` of the block and any entry `i` of the array with those coordinates. -/
theorem outBlk_point (K : S16002x2048.Idx → EReal) (E : S1x2048.Idx → EReal) (X : S2x2000x2048.Idx → EReal) (t : Fin cfg0.N)
    (y : S2x256x2000.Idx) (i : S2x16002x2000.Idx) (hy : (y 1).val < (if t.val < 62 then 256 else 130))
    (h0 : (i 0).val = (y 0).val) (h1 : (i 1).val = 256 * t.val + (y 1).val) (h2 : (i 2).val = (y 2).val) :
    Body.outBlk (F := Ideal) (win0_0.fill (grid0.coords t) (fun _ => (0 : EReal)) (((cfg0.win 0).blk t).view.read (Elt Ideal) K))
        (((cfg0.win 1).blk t).view.read (Elt Ideal) E) (((cfg0.win 2).blk t).view.read (Elt Ideal) X) y
      = Cert.Spec.outOf K E X i := by
  obtain ⟨b, r, q, rfl⟩ : ∃ (b : Fin 2) (r : Fin 256) (q : Fin 2000), y = ix3 b r q := ⟨y 0, y 1, y 2, eq_ix3 y⟩
  obtain ⟨b', f, q', rfl⟩ : ∃ (b' : Fin 2) (f : Fin 16002) (q' : Fin 2000), i = ix3 b' f q' := ⟨i 0, i 1, i 2, eq_ix3 i⟩
  obtain rfl : b' = b := Fin.ext h0
  obtain rfl : q' = q := Fin.ext h2
  exact outBlk_at K E X t b' r q' f hy h1

/-! ## What each point writes back, and the array after the last point -/

/-- The moved part of the result block at point `t` is block `t` of `Spec.outOf` of the arrays: an entry the
    write-back moves sits in the array at `(b, 256 t + r, q)`, and its row `r` is one the fetch moved. -/
theorem flushed_gen (K : S16002x2048.Idx → EReal) (E : S1x2048.Idx → EReal) (X : S2x2000x2048.Idx → EReal) (t : Fin cfg0.N) :
    (cfg0.win 3).cut (grid0.coords t)
        (Body.outBlk (F := Ideal) (win0_0.fill (grid0.coords t) (fun _ => (0 : EReal)) (((cfg0.win 0).blk t).view.read (Elt Ideal) K))
          (((cfg0.win 1).blk t).view.read (Elt Ideal) E) (((cfg0.win 2).blk t).view.read (Elt Ideal) X))
      = ((cfg0.win 3).blk t).view.read (Elt Ideal) (Cert.Spec.outOf K E X) := by
  obtain ⟨-, -, -, -, x1, -⟩ := idx_out t
  obtain ⟨o0, o1, o2⟩ := off_out t
  funext j
  have hj1 : (j 1).val < win0_3.xsize (grid0.coords t) 1 := (j 1).isLt
  rw [x1] at hj1
  have hi : ∀ a, ((((cfg0.win 3).blk t).view.emb j) a : Nat) = win0_3.index t a * win0_3.size a + (j a : Nat) :=
    fun a => win0_3.rect_emb_val t j a
  exact outBlk_point K E X t ((cfg0.win 3).xinj (grid0.coords t) j) (((cfg0.win 3).blk t).view.emb j) hj1
    ((hi 0).trans (by rw [o0]; exact Nat.zero_add _)) ((hi 1).trans (by rw [o1])) ((hi 2).trans (by rw [o2]; exact Nat.zero_add _))

/-- An entry of the result is in point `t`'s block iff each coordinate is in the block's range on its axis. -/
theorem mem_blk (t : Fin cfg0.N) (i : S2x16002x2000.Idx) :
    i ∈ ((cfg0.win 3).blk t).view.set ↔ ∀ a : Fin 3, win0_3.index t a * S2x256x2000.size a ≤ (i a).val ∧ (i a).val < win0_3.index t a * S2x256x2000.size a + win0_3.xsize (grid0.coords t) a := by
  show i ∈ ((View.whole main_v26).slice (win0_3.rect t)).set ↔ _
  rw [View.set_slice_whole, Rect.mem_set_unit]
  exact Iff.rfl

/-- Every entry of the result is in the block of the point its filter row belongs to, `f / 256`. -/
theorem cover (i : S2x16002x2000.Idx) : ∃ t : Fin cfg0.N, (cfg0.win 3).flush t = true ∧ i ∈ ((cfg0.win 3).blk t).view.set := by
  have h0 : (i 0).val < 2 := (i 0).isLt
  have h1 : (i 1).val < 16002 := (i 1).isLt
  have h2 : (i 2).val < 2000 := (i 2).isLt
  have hN : cfg0.N = 63 := N_0
  refine ⟨⟨(i 1).val / 256, by rw [hN]; omega⟩, flush0_3 _, ?_⟩
  rw [mem_blk]
  obtain ⟨e0, e1, e2, x0, x1, x2⟩ := idx_out ⟨(i 1).val / 256, by rw [hN]; omega⟩
  intro a
  match a with
  | ⟨0, _⟩ => show win0_3.index _ 0 * 2 ≤ (i 0).val ∧ (i 0).val < win0_3.index _ 0 * 2 + win0_3.xsize _ 0; rw [e0, x0]; omega
  | ⟨1, _⟩ => show win0_3.index _ 1 * 256 ≤ (i 1).val ∧ (i 1).val < win0_3.index _ 1 * 256 + win0_3.xsize _ 1; rw [e1, x1]; show (i 1).val / 256 * 256 ≤ (i 1).val ∧ (i 1).val < (i 1).val / 256 * 256 + (if (i 1).val / 256 < 62 then 256 else 130); split <;> omega
  | ⟨2, _⟩ => show win0_3.index _ 2 * 2000 ≤ (i 2).val ∧ (i 2).val < win0_3.index _ 2 * 2000 + win0_3.xsize _ 2; rw [e2, x2]; omega

variable (m : (ℓ : Loc nD τ sig) → Buf (Elt Ideal) ℓ)

/-- What the proof data's point `t` writes back is block `t` of `Spec.outOf` of the arrays as the region finds them. -/
theorem flushed_eq (c : Dev nD) (t : Fin cfg0.N) :
    (Data.dats m 0 c).flushed 3 t
      = ((cfg0.win 3).blk t).view.read (Elt Ideal) (Cert.Spec.outOf (Gen.V m c main_arg1) (Gen.V m c main_v25) (Gen.V m c main_v17)) := by
  show (cfg0.win 3).cut (grid0.coords t) ((Data.dats m 0 c).after 3 t) = _
  rw [Data.after0_3]
  unfold Data.kblk Gen.iblk
  exact flushed_gen (Gen.V m c main_arg1) (Gen.V m c main_v25) (Gen.V m c main_v17) t

/-- THE RESULT after the last point: `Spec.outOf` of the filter bank, the weights and the frames as the region finds
    them. -/
theorem out_final (c : Dev nD) :
    ((Data.dats m 0 c).arrAt 3 cfg0.N : S2x16002x2000.Idx → EReal)
      = Cert.Spec.outOf (Gen.V m c main_arg1) (Gen.V m c main_v25) (Gen.V m c main_v17) :=
  (Data.dats m 0 c).arrAt_eq_of_cover 3 _ (fun t _ => flushed_eq m c t) cover

end Cert.KernelIdeal.OutArray

end
-- ==== Proof.Spec.lean ====
/-
  The mathematics of the certificate, with no program in sight.

  Three argument arrays: a signal `wav` of 2 channels by 32000 samples, a filter bank `ker` of 16002 rows by 2048 taps,
  and an envelope `env` of 2048 taps. The signal is padded on the left with 2047 zeros, and frame `t` of channel `b`
  is the 2048 consecutive padded samples starting at position `16 t`. With `area = (∑ env) / 16000` and
  `scale = √8-literal / area`, both programs produce, for channel `b`, filter row `f` and frame `t`, the correlation of
  the frame with the row weighted by the envelope, divided by 16000 and multiplied by `scale`; they differ in where
  the two scalar factors sit: inside the sum on each tap (`kerOut`) or the division inside and `scale` outside the sum
  (`refOut`). The two agree when every entry is a real number and `area ≠ 0` (so that `scale` is a real number too):
  a finite sum of real products is linear in a real factor.
-/
import Idealize.ShloMosaic.PureOps.Ideal
import Idealize.ShloMosaic.Lib.ValueIdx

noncomputable section

namespace Cert.Spec

open Idealize.ShloMosaic Idealize.ShloMosaic.ValueIdx

/-- The shapes of the three arguments. -/
abbrev SWav : Shape := ⟨2, ![2, 32000]⟩
abbrev SKer : Shape := ⟨2, ![16002, 2048]⟩
abbrev SEnv : Shape := ⟨1, ![2048]⟩

/-- The real number 16000, as the f32 word both programs carry. -/
def c16000 : EReal := Ideal.ofBits .f32 0x467A0000#32
/-- The f32 word nearest to the square root of 8, which both programs carry. -/
def cRoot8 : EReal := Ideal.ofBits .f32 0x403504F3#32

/-- The padded signal of channel `b` at position `p`: 2047 zeros, then the 32000 samples (zero beyond them). -/
def padv (wav : SWav.Idx → EReal) (b : Fin 2) (p : Nat) : EReal :=
  if h : 2047 ≤ p ∧ p - 2047 < 32000 then wav (ix2 b ⟨p - 2047, h.2⟩) else 0

/-- Tap `k` of frame `t` of channel `b`: the padded signal at `16 t + k`. -/
def frame (wav : SWav.Idx → EReal) (b : Fin 2) (t : Fin 2000) (k : Fin 2048) : EReal :=
  padv wav b (16 * t.val + k.val)

/-- The envelope's area: its sum divided by 16000. -/
def area (env : SEnv.Idx → EReal) : EReal := Ideal.div (∑ k : Fin 2048, env (ix1 k)) c16000
/-- The normalisation: the root-8 word divided by the area. -/
def scale (env : SEnv.Idx → EReal) : EReal := Ideal.div cRoot8 (area env)

/-- The per-tap weight the kernel folds the two scalars into: `(env k / 16000) · scale`. -/
def envVec (env : SEnv.Idx → EReal) (k : Fin 2048) : EReal := Ideal.div (env (ix1 k)) c16000 * scale env

/-- The kernel's value at channel `b`, filter row `f`, frame `t`: the weights inside the sum. -/
def kerOut (wav : SWav.Idx → EReal) (ker : SKer.Idx → EReal) (env : SEnv.Idx → EReal) (b : Fin 2) (f : Fin 16002) (t : Fin 2000) : EReal :=
  ∑ k : Fin 2048, (ker (ix2 f k) * envVec env k) * frame wav b t k

/-- The reference's value there: the division inside the sum, the normalisation outside. -/
def refOut (wav : SWav.Idx → EReal) (ker : SKer.Idx → EReal) (env : SEnv.Idx → EReal) (b : Fin 2) (f : Fin 16002) (t : Fin 2000) : EReal :=
  (∑ k : Fin 2048, Ideal.div (ker (ix2 f k) * env (ix1 k)) c16000 * frame wav b t k) * scale env

end Cert.Spec

end
-- ==== Proof.HostValueA.lean ====
/-
  The two results of the kernel's program after its region.

  The region leaves a [2, 16002, 2000] array (channel, filter row, frame). The program's last two lines cut it along the
  filter rows into rows 0 … 8000 and rows 8001 … 16001. Read at an index, each result is the region's output array at
  the same channel and frame and at the row, or the row plus 8001. This holds for any contents of the output array.
-/
import proofs.«155504_j34505767256674_2_alg».proof.Proof.Gen.KernelIdeal.Frame
import proofs.«155504_j34505767256674_2_alg».proof.Proof.Spec
import Idealize.ShloMosaic.Lib.Pipeline.Value
import Idealize.ShloMosaic.Lib.ValueIdx
import Idealize.ShloMosaic.PureOps.Ideal.Laws

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-- Rows 0 … 8000 of the region's output: the first result at (b, f, t) is the output array at (b, f, t). -/
theorem tail_v27 (dats : (p : Fin 1) → (c : Dev nD) → Pipeline.Dat τ (Elt Ideal) Unit ℕ (UR sig nD τ) ℕ (cfgs p) c)
    (m : (ℓ : Loc nD τ sig) → Buf (Elt Ideal) ℓ) (c : Dev nD) :
    (Pipeline.afterTail₀ cfgs dats 0 (Gen.V0 m) [hostOps1] c main_v27 : S2x8001x2000.Idx → EReal)
      = fun j => ((dats 0 c).arrAt 3 cfg0.N : S2x16002x2000.Idx → EReal)
          (ValueIdx.ix3 (j 0) ⟨(j 1).val, by have h1 : (j 1).val < 8001 := (j 1).isLt; show (j 1).val < 16002; omega⟩ (j 2)) := by
  unfold Pipeline.afterTail₀
  show StableHlo.after hostOps1 _ (Proc.devRef .tc main_v27) = _
  after_results
  have e := Pipeline.withArrays_arr spec0 launch0.win.arr_inj c (V0 m c) (fun w => (dats 0 c).arrAt w cfg0.N) 3
  funext j
  refine (extractStridedSlice_apply ![0, 0, 0] _ slices_S2x16002x2000_S2x8001x2000_0_0_0 j
    (ValueIdx.ix3 (j 0) ⟨(j 1).val, by have h1 : (j 1).val < 8001 := (j 1).isLt; show (j 1).val < 16002; omega⟩ (j 2)) (fun a => match a with
    | ⟨0, _⟩ => by show (j 0).val = 0 + (j 0).val; omega
    | ⟨1, _⟩ => by show (j 1).val = 0 + (j 1).val; omega
    | ⟨2, _⟩ => by show (j 2).val = 0 + (j 2).val; omega)).trans ?_
  exact congrFun e _

/-- Rows 8001 … 16001 of the region's output: the second result at (b, f, t) is the output array at (b, f + 8001, t). -/
theorem tail_v28 (dats : (p : Fin 1) → (c : Dev nD) → Pipeline.Dat τ (Elt Ideal) Unit ℕ (UR sig nD τ) ℕ (cfgs p) c)
    (m : (ℓ : Loc nD τ sig) → Buf (Elt Ideal) ℓ) (c : Dev nD) :
    (Pipeline.afterTail₀ cfgs dats 0 (Gen.V0 m) [hostOps1] c main_v28 : S2x8001x2000.Idx → EReal)
      = fun j => ((dats 0 c).arrAt 3 cfg0.N : S2x16002x2000.Idx → EReal)
          (ValueIdx.ix3 (j 0) ⟨(j 1).val + 8001, by have h1 : (j 1).val < 8001 := (j 1).isLt; show (j 1).val + 8001 < 16002; omega⟩ (j 2)) := by
  unfold Pipeline.afterTail₀
  show StableHlo.after hostOps1 _ (Proc.devRef .tc main_v28) = _
  after_results
  have e := Pipeline.withArrays_arr spec0 launch0.win.arr_inj c (V0 m c) (fun w => (dats 0 c).arrAt w cfg0.N) 3
  funext j
  refine (extractStridedSlice_apply ![0, 8001, 0] _ slices_S2x16002x2000_S2x8001x2000_0_8001_0 j
    (ValueIdx.ix3 (j 0) ⟨(j 1).val + 8001, by have h1 : (j 1).val < 8001 := (j 1).isLt; show (j 1).val + 8001 < 16002; omega⟩ (j 2)) (fun a => match a with
    | ⟨0, _⟩ => by show (j 0).val = 0 + (j 0).val; omega
    | ⟨1, _⟩ => by show (j 1).val + 8001 = 8001 + (j 1).val; omega
    | ⟨2, _⟩ => by show (j 2).val = 0 + (j 2).val; omega)).trans ?_
  exact congrFun e _

end Cert.KernelIdeal.HostValue

end
-- ==== Proof.HostValueB.lean ====
/-
  The per-tap weights the kernel's region reads from its second window.

  Before the region the program computes, from the envelope `env` of 2048 taps, the array
  `(env / 16000) · (root8 / ((0 + Σ env) / 16000))` and re-lays it from [2048] to [1, 2048]. Read at `(0, k)` this is the
  specification's weight of tap `k`: the tap over 16000 times the normalisation (the leading zero of the sum is the
  real number zero, and a sum over the indices of a one-axis array is the sum over the axis).
-/
import proofs.«155504_j34505767256674_2_alg».proof.Proof.Gen.KernelIdeal.Frame
import proofs.«155504_j34505767256674_2_alg».proof.Proof.Spec
import Idealize.ShloMosaic.Lib.Pipeline.Value
import Idealize.ShloMosaic.Lib.ValueIdx
import Idealize.ShloMosaic.PureOps.Ideal.Laws
import Idealize.ShloMosaic.Lib.IdealHost
import Idealize.ShloMosaic.Lib.WordArith

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

/-- The array window 1 stages, as the composition of the host lines that compute it from the envelope:
    `(env / 16000) · bcast(root8 / ((0 + Σ env) / 16000))`, re-laid from [2048] to [1, 2048]. -/
def envTerm (env : (⟨S2048, .f32⟩ : BufTy).Contents (Elt Ideal)) : (⟨S1x2048, .f32⟩ : BufTy).Contents (Elt Ideal) :=
  shapeCast S1x2048
    (mulf
      (Host.divf env (broadcastInDim S2048 ![] bcast_S_S2048 (constant (F := Ideal) S_ .f32 0x467A0000#32)))
      (broadcastInDim S2048 ![] bcast_S_S2048
        (Host.divf (constant (F := Ideal) S_ .f32 0x403504F3#32)
          (Host.divf (Host.reduceAdd env (constant (F := Ideal) S_ .f32 0x00000000#32) reducesTo_S2048_S_d0 h_S_)
            (constant (F := Ideal) S_ .f32 0x467A0000#32)))))
    shapeCasts_S2048_S1x2048

set_option maxHeartbeats 1000000 in
/-- The region finds that composition in window 1's array. -/
theorem V_envvec_term (m : (ℓ : Loc nD τ sig) → Buf (Elt Ideal) ℓ) (c : Dev nD) :
    (Gen.V m c main_v25 : S1x2048.Idx → EReal) = envTerm (m ((c : Thread nD τ).loc main_arg2)) := by
  dsimp only [Gen.V, Gen.V0]
  simp only [Gen.hostOps0, Gen.hostOps0_1, Gen.hostOps0_2, List.flatten_cons, List.flatten_nil, List.append_nil, List.cons_append, List.nil_append]
  after_results
  rfl

/-- A sum over the indices of a one-axis array is the sum over the axis. -/
theorem sum_idx1 (f : S2048.Idx → EReal) : ∑ i : S2048.Idx, f i = ∑ k : Fin 2048, f (ix1 k) := by
  refine (Fintype.sum_equiv (⟨ix1, fun i => i 0, fun k => rfl, fun i => (eq_ix1 i).symm⟩ : Fin 2048 ≃ S2048.Idx) _ _ (fun k => rfl)).symm

/-- The composition read at tap `k`: the envelope's tap over 16000, times the normalisation. -/
theorem envTerm_apply (env : (⟨S2048, .f32⟩ : BufTy).Contents (Elt Ideal)) (j : S1x2048.Idx) :
    envTerm env j = Cert.Spec.envVec env (j 1) := by
  unfold envTerm
  refine (shapeCast_apply _ shapeCasts_S2048_S1x2048 j (ix1 (j 1)) ?_).trans ?_
  · rw [Shape.rowMajor_val_one, Shape.rowMajor_val_two]
    have h0 : (j 0).val < 1 := (j 0).isLt
    show (j 1).val = (j 0).val * 2048 + (j 1).val
    omega
  · rw [mulf_apply, hostDivf_apply, broadcastInDim_scalar_apply, broadcastInDim_scalar_apply, hostDivf_apply, hostDivf_apply,
      hostReduceAdd_apply, Ideal.hostReduceAdd_total reducesTo_S2048_S_d0 (fun b => b.elim0)]
    simp only [constant_apply]
    rw [Ideal.ofBits_zero_f32, zero_add, sum_idx1]
    rfl

/-- What the region finds in window 1's array: at `(0, k)`, the kernel's weight of tap `k`. -/
theorem V_envvec (m : (ℓ : Loc nD τ sig) → Buf (Elt Ideal) ℓ) (c : Dev nD) :
    (Gen.V m c main_v25 : S1x2048.Idx → EReal) = fun j => Cert.Spec.envVec (m ((c : Thread nD τ).loc main_arg2)) (j 1) := by
  rw [V_envvec_term]
  funext j
  exact envTerm_apply _ j

end Cert.KernelIdeal.HostValue

end
-- ==== Proof.HostValueC.lean ====
/-
  The frames the kernel's region reads from its third window.

  Before the region the program pads the signal of each channel with 2047 zeros on the left and one on the right (34048
  positions), cuts it into 2128 rows of 16 samples, and for frame `t` and `j < 128` gathers row `t + j`; the 128 rows of 16
  are re-laid as one frame of 2048 taps, tap `k = 16 j + r` being sample `r` of row `t + j`. The row index `t + j` is computed
  on 32-bit words; it lies in 0 … 2126, so the branch that would add 2128 to a negative index is never taken and the gather
  never clamps. Sample `r` of row `t + j` is the padded signal at `16 (t + j) + r = 16 t + k`: tap `k` of frame `t` as the
  specification defines it. The last position, the one zero on the right, is never read (`16 · 1999 + 2047 = 34031`).
  The final change of float format is the identity on extended reals.
-/
import proofs.«155504_j34505767256674_2_alg».proof.Proof.Gen.KernelIdeal.Frame
import proofs.«155504_j34505767256674_2_alg».proof.Proof.Spec
import Idealize.ShloMosaic.Lib.Pipeline.Value
import Idealize.ShloMosaic.Lib.ValueIdx
import Idealize.ShloMosaic.PureOps.Ideal.Laws
import Idealize.ShloMosaic.Lib.IdealHost
import Idealize.ShloMosaic.Lib.WordArith

noncomputable section

namespace Cert.KernelIdeal.HostValue

open Cert.KernelIdeal Cert.KernelIdeal.Gen Idealize.ShloMosaic Idealize.ShloMosaic.TcCoe Idealize.SL.Sem Idealize.ShloMosaic.StableHlo
open Idealize.ShloMosaic.ValueIdx

open Idealize.ShloMosaic.WordArith

/-- The word array `t + j` over frames `t` and 16-sample rows `j`. -/
def tj : (⟨S2000x128, .i32⟩ : BufTy).Contents (Elt Ideal) :=
  addi
    (broadcastInDim S2000x128 ![0, 1] bcast_S2000x1_S2000x128_0_1 (broadcastInDim S2000x1 ![0] bcast_S2000_S2000x1_0 (iotaInDim S2000 32 0)))
    (broadcastInDim S2000x128 ![0, 1] bcast_S1x128_S2000x128_0_1 (broadcastInDim S1x128 ![1] bcast_S128_S1x128_1 (iotaInDim S128 32 0)))

/-- The start indices of the gather: `t + j`, moved up by 2128 where negative (nowhere), with a trailing unit axis. -/
def idxArr : (⟨S2000x128x1, .i32⟩ : BufTy).Contents (Elt Ideal) :=
  broadcastInDim S2000x128x1 ![0, 1] bcast_S2000x128_S2000x128x1_0_1
    (select (cmpi .slt tj (broadcastInDim S2000x128 ![] bcast_S_S2000x128 (constantI S_ 32 0#32)))
      (addi tj (broadcastInDim S2000x128 ![] bcast_S_S2000x128 (constantI S_ 32 2128#32)))
      tj)

theorem tj_apply (t : Fin 2000) (jj : Fin 128) : tj (ix2 t jj) = BitVec.ofNat 32 (t.val + jj.val) := by
  unfold tj
  have e1 : broadcastInDim S2000x128 ![0, 1] bcast_S2000x1_S2000x128_0_1 (broadcastInDim S2000x1 ![0] bcast_S2000_S2000x1_0 (iotaInDim S2000 32 0)) (ix2 t jj)
      = BitVec.ofNat 32 t.val := by
    refine (broadcastInDim_apply ![0, 1] bcast_S2000x1_S2000x128_0_1 _ (ix2 t jj) (ix2 t ⟨0, Nat.one_pos⟩) (fun a => match a with
      | ⟨0, _⟩ => by show t.val = if (2000 : Nat) = 1 then 0 else t.val; rw [if_neg (by decide)]
      | ⟨1, _⟩ => by show 0 = if (1 : Nat) = 1 then 0 else jj.val; rw [if_pos rfl])).trans ?_
    refine (broadcastInDim_apply ![0] bcast_S2000_S2000x1_0 _ (ix2 t ⟨0, Nat.one_pos⟩) (ix1 t) (fun a => match a with
      | ⟨0, _⟩ => by show t.val = if (2000 : Nat) = 1 then 0 else t.val; rw [if_neg (by decide)])).trans ?_
    rfl
  have e2 : broadcastInDim S2000x128 ![0, 1] bcast_S1x128_S2000x128_0_1 (broadcastInDim S1x128 ![1] bcast_S128_S1x128_1 (iotaInDim S128 32 0)) (ix2 t jj)
      = BitVec.ofNat 32 jj.val := by
    refine (broadcastInDim_apply ![0, 1] bcast_S1x128_S2000x128_0_1 _ (ix2 t jj) (ix2 ⟨0, Nat.one_pos⟩ jj) (fun a => match a with
      | ⟨0, _⟩ => by show 0 = if (1 : Nat) = 1 then 0 else t.val; rw [if_pos rfl]
      | ⟨1, _⟩ => by show jj.val = if (128 : Nat) = 1 then 0 else jj.val; rw [if_neg (by decide)])).trans ?_
    refine (broadcastInDim_apply ![1] bcast_S128_S1x128_1 _ (ix2 ⟨0, Nat.one_pos⟩ jj) (ix1 jj) (fun a => match a with
      | ⟨0, _⟩ => by show jj.val = if (128 : Nat) = 1 then 0 else jj.val; rw [if_neg (by decide)])).trans ?_
    rfl
  show IntOp.addi _ _ = _
  rw [e1, e2]
  exact (BitVec.ofNat_add _ _).symm

theorem cmpi_slt_zero_of_small (n : Nat) (h : n < 2 ^ 31) : IntOp.cmpi .slt (BitVec.ofNat 32 n) 0#32 = 0#1 := by
  have hn : ¬ ((BitVec.ofNat 32 n).toInt < (0#32 : BitVec 32).toInt) := by
    rw [toInt_ofNat_small n h]; simp
  show BitVec.ofBool ((BitVec.ofNat 32 n).slt 0#32) = 0#1
  rw [BitVec.slt, decide_eq_false hn]
  rfl

theorem idxArr_apply (t : Fin 2000) (jj : Fin 128) (z : Fin 1) : idxArr (ix3 t jj z) = BitVec.ofNat 32 (t.val + jj.val) := by
  unfold idxArr
  refine (broadcastInDim_apply ![0, 1] bcast_S2000x128_S2000x128x1_0_1 _ (ix3 t jj z) (ix2 t jj) (fun a => match a with
    | ⟨0, _⟩ => by show t.val = if (2000 : Nat) = 1 then 0 else t.val; rw [if_neg (by decide)]
    | ⟨1, _⟩ => by show jj.val = if (128 : Nat) = 1 then 0 else jj.val; rw [if_neg (by decide)])).trans ?_
  show Scalar.select (IntOp.cmpi .slt (tj (ix2 t jj)) 0#32) _ (tj (ix2 t jj)) = _
  rw [tj_apply, cmpi_slt_zero_of_small _ (by have := t.isLt; have := jj.isLt; omega)]
  exact select_zero _ _

/-- The dimension numbers of the gather of 16-sample rows: row `idx[t, j, 0]` of each channel, whole along the other axes. -/
abbrev gd := gather_S2x2128x16_S2000x128x1_S2x2000x128x16_03_1_n_n_1_2_2116

/-- The gather read at `(b, t, j, r)`: channel `b`, row `idx[t, j, 0]` (read signed, clamped into the rows), sample `r`. -/
theorem gather_rows_apply {α : Type} (x : S2x2128x16.Idx → α) (idx : IVec S2000x128x1 32) (b : Fin 2) (t : Fin 2000) (jj : Fin 128) (r : Fin 16)
    (q : Fin 2128) (hq : min (idx (ix3 t jj ⟨0, Nat.one_pos⟩)).toInt.toNat 2127 = q.val) :
    Host.gather gd x idx (ix4 b t jj r) = x (ix3 b q r) := by
  have m0 : (⟨0, by decide⟩ : Fin 3) ∈ gd.sKept := by decide
  have m2 : (⟨2, by decide⟩ : Fin 3) ∈ gd.sKept := by decide
  have n1 : (⟨1, by decide⟩ : Fin 3) ∉ gd.sKept := by decide
  have s0 : (⟨0, by decide⟩ : Fin 3) ∉ gd.startIndexMap := by decide
  have s1 : (⟨1, by decide⟩ : Fin 3) ∈ gd.startIndexMap := by decide
  have s2 : (⟨2, by decide⟩ : Fin 3) ∉ gd.startIndexMap := by decide
  unfold Host.gather
  congr 1
  funext a
  refine Fin.ext ?_
  show gd.start (ix4 b t jj r) idx a + gd.batchCoord (ix4 b t jj r) a + gd.offCoord (ix4 b t jj r) a = _
  rw [GatherDims.batchCoord_eq_zero _ _ _ List.not_mem_nil, Nat.add_zero]
  match a with
  | ⟨0, _⟩ =>
    have hs : gd.start (ix4 b t jj r) idx (⟨0, by decide⟩ : Fin 3) = 0 := by
      unfold GatherDims.start; exact dif_neg s0
    rw [hs, Nat.zero_add]
    unfold GatherDims.offCoord
    rw [dif_pos m0]
    rfl
  | ⟨1, _⟩ =>
    rw [GatherDims.offCoord_eq_zero _ _ _ n1, Nat.add_zero]
    unfold GatherDims.start
    rw [dif_pos s1]
    have hsi : gd.siIdx (ix4 b t jj r) ⟨List.idxOf (⟨1, by decide⟩ : Fin 3) gd.startIndexMap, List.idxOf_lt_length_iff.2 s1⟩ = ix3 t jj ⟨0, Nat.one_pos⟩ := by
      funext b'; refine Fin.ext ?_
      match b' with
      | ⟨0, _⟩ => rfl
      | ⟨1, _⟩ => rfl
      | ⟨2, _⟩ => rfl
    rw [hsi]
    exact hq
  | ⟨2, _⟩ =>
    have hs : gd.start (ix4 b t jj r) idx (⟨2, by decide⟩ : Fin 3) = 0 := by
      unfold GatherDims.start; exact dif_neg s2
    rw [hs, Nat.zero_add]
    unfold GatherDims.offCoord
    rw [dif_pos m2]
    rfl

/-- The signal padded by 2047 zeros on the left and one on the right. -/
def padded (wav : (⟨S2x32000, .f32⟩ : BufTy).Contents (Elt Ideal)) : (⟨S2x34048, .f32⟩ : BufTy).Contents (Elt Ideal) :=
  pad S2x34048 ![0, 2047] ![0, 1] ![0, 0] wav (sitofp (F := Ideal) .f32 (constantI S_ 32 0#32)) pads_S2x32000_S2x34048_000_204710 h_S_

/-- Read at position `p` of channel `b` it is the specification's padded signal. -/
theorem padded_apply (wav : (⟨S2x32000, .f32⟩ : BufTy).Contents (Elt Ideal)) (b : Fin 2) (p : Fin 34048) :
    padded wav (ix2 b p) = Cert.Spec.padv wav b p.val := by
  unfold padded pad Cert.Spec.padv
  by_cases h : 2047 ≤ p.val ∧ p.val - 2047 < 32000
  · rw [dif_pos h, dif_pos (fun a => match a with
        | ⟨0, _⟩ => ⟨Nat.zero_le _, by show (b.val - 0) % 1 = 0; omega, by show (b.val - 0) / 1 < 2; have := b.isLt; omega⟩
        | ⟨1, _⟩ => ⟨h.1, by show (p.val - 2047) % 1 = 0; omega, by show (p.val - 2047) / 1 < 32000; have := h.2; omega⟩)]
    refine congrArg wav (funext fun a => Fin.ext ?_)
    match a with
    | ⟨0, _⟩ => show (b.val - 0) / 1 = b.val; omega
    | ⟨1, _⟩ => show (p.val - 2047) / 1 = p.val - 2047; omega
  · rw [dif_neg h, dif_neg (fun hin => h (by
        have h1 := hin ⟨1, by decide⟩
        have h1a : 2047 ≤ p.val := h1.1
        have h1b : (p.val - 2047) / 1 < 32000 := h1.2.2
        exact ⟨h1a, by omega⟩))]
    show ((((0#32 : BitVec 32).toInt : ℝ)) : EReal) = 0
    simp

/-- The padded signal re-laid as 2128 rows of 16 samples. -/
def rows (wav : (⟨S2x32000, .f32⟩ : BufTy).Contents (Elt Ideal)) : (⟨S2x2128x16, .f32⟩ : BufTy).Contents (Elt Ideal) :=
  shapeCast S2x2128x16 (padded wav) shapeCasts_S2x34048_S2x2128x16

/-- Sample `r` of row `q` is the padded signal at `16 q + r`. -/
theorem rows_apply (wav : (⟨S2x32000, .f32⟩ : BufTy).Contents (Elt Ideal)) (b : Fin 2) (q : Fin 2128) (r : Fin 16) :
    rows wav (ix3 b q r) = Cert.Spec.padv wav b (16 * q.val + r.val) := by
  unfold rows
  refine (shapeCast_apply _ shapeCasts_S2x34048_S2x2128x16 (ix3 b q r) (ix2 b ⟨16 * q.val + r.val, by omega⟩) ?_).trans (padded_apply wav b _)
  rw [Shape.rowMajor_val_two, Shape.rowMajor_val_three]
  show b.val * 34048 + (16 * q.val + r.val) = (b.val * 2128 + q.val) * 16 + r.val
  omega

/-- The array window 2 stages, as the composition of the host lines that compute it from the signal: pad, cut into rows
    of 16, gather rows `t + j`, re-lay `(j, r)` as `16 j + r`, change of float format. -/
def framesTerm (wav : (⟨S2x32000, .f32⟩ : BufTy).Contents (Elt Ideal)) : (⟨S2x2000x2048, .bf16⟩ : BufTy).Contents (Elt Ideal) :=
  truncf (F := Ideal) .bf16 (shapeCast S2x2000x2048 (Host.gather gd (rows wav) idxArr) shapeCasts_S2x2000x128x16_S2x2000x2048) bitsLt_bf16_f32

/-- Read at `(b, t, k)`: with `k = 16 j + r` the gather reads row `t + j` (never clamped: `t + j ≤ 2126`) at sample `r`, the
    padded signal at `16 (t + j) + r = 16 t + k`. -/
theorem framesTerm_apply (wav : (⟨S2x32000, .f32⟩ : BufTy).Contents (Elt Ideal)) (b : Fin 2) (t : Fin 2000) (k : Fin 2048) :
    framesTerm wav (ix3 b t k) = Cert.Spec.frame wav b t k := by
  unfold framesTerm
  rw [truncf_apply]
  refine (shapeCast_apply _ shapeCasts_S2x2000x128x16_S2x2000x2048 (ix3 b t k) (ix4 b t ⟨k.val / 16, by omega⟩ ⟨k.val % 16, by omega⟩) ?_).trans ?_
  · rw [Shape.rowMajor_val_four, Shape.rowMajor_val_three]
    show ((b.val * 2000 + t.val) * 128 + k.val / 16) * 16 + k.val % 16 = (b.val * 2000 + t.val) * 2048 + k.val
    omega
  · have ht := t.isLt
    have hk := k.isLt
    refine (gather_rows_apply (rows wav) idxArr b t ⟨k.val / 16, by omega⟩ ⟨k.val % 16, by omega⟩ ⟨t.val + k.val / 16, by omega⟩ ?_).trans ?_
    · rw [idxArr_apply, toInt_ofNat_small _ (by show t.val + k.val / 16 < 2 ^ 31; omega)]
      show min ((t.val + k.val / 16 : Nat) : Int).toNat 2127 = t.val + k.val / 16
      rw [Int.toNat_natCast]
      omega
    · rw [rows_apply]
      unfold Cert.Spec.frame
      exact congrArg (Cert.Spec.padv wav b) (by show 16 * (t.val + k.val / 16) + k.val % 16 = 16 * t.val + k.val; omega)

set_option maxHeartbeats 1000000 in
/-- The region finds that composition in window 2's array. -/
theorem V_frames_term (m : (ℓ : Loc nD τ sig) → Buf (Elt Ideal) ℓ) (c : Dev nD) :
    (Gen.V m c main_v17 : S2x2000x2048.Idx → EReal) = framesTerm (m ((c : Thread nD τ).loc main_arg0)) := by
  dsimp only [Gen.V, Gen.V0]
  simp only [Gen.hostOps0, Gen.hostOps0_1, Gen.hostOps0_2, List.flatten_cons, List.flatten_nil, List.append_nil, List.cons_append, List.nil_append]
  after_results
  rfl

/-- What the region finds in window 2's array: at `(b, t, k)`, tap `k` of frame `t` of channel `b`. -/
theorem V_frames (m : (ℓ : Loc nD τ sig) → Buf (Elt Ideal) ℓ) (c : Dev nD) :
    (Gen.V m c main_v17 : S2x2000x2048.Idx → EReal) = fun j => Cert.Spec.frame (m ((c : Thread nD τ).loc main_arg0)) (j 0) (j 1) (j 2) := by
  rw [V_frames_term]
  funext j
  exact (congrArg (framesTerm _) (eq_ix3 j)).trans (framesTerm_apply _ (j 0) (j 1) (j 2))

end Cert.KernelIdeal.HostValue

end
-- ==== Proof.HostValue.lean ====
/-
  The kernel's program outside its region, read at the extended reals.

  Before the region it prepares two of the region's input arrays from the arguments: the per-tap weights from the
  envelope, and the 2000 frames of 2048 taps of each channel from the signal; after the region it cuts the region's
  output into two blocks of filter rows. The three modules below state each as a function of the arguments, index by
  index, in the specification's terms.
-/
import proofs.«155504_j34505767256674_2_alg».proof.Proof.HostValueA
import proofs.«155504_j34505767256674_2_alg».proof.Proof.HostValueB
import proofs.«155504_j34505767256674_2_alg».proof.Proof.HostValueC
-- ==== Proof.RefValue.lean ====
/-
  The reference's two results, index by index, are the specification's `refOut`.

  The reference pads each channel of the signal on the left with 2047 zeros, gathers frame `t` as the 2048 padded
  samples from position `16 t` on, multiplies each filter row by the envelope and divides by 16000, contracts the
  rows with the frames over the 2048 taps, and multiplies the two halves of the rows (`0 … 8000` and
  `8001 … 16001`) by the scalar `√8-word / ((0 + ∑ env) / 16000)`.

  Read here by hand: the padded signal at a position (zero before 2047, the sample `p − 2047` from there on); the
  start index of tap `i` of frame `t`, the 32-bit word of `16 t + i` (it is at most 34031, so it is not negative as a
  signed word, the guard that would add 34047 is never taken, and clamping into the padded signal does not move it);
  the gathered frame; the normalisation scalar; and the contraction as a sum over the taps.
-/
import proofs.«155504_j34505767256674_2_alg».proof.Proof.Gen.ReferenceIdeal.Read
import proofs.«155504_j34505767256674_2_alg».proof.Proof.Spec
import Idealize.ShloMosaic.Lib.KernelVsHost

noncomputable section

namespace Cert.RefValue

open Cert.ReferenceIdeal Cert.ReferenceIdeal.Gen Cert.ReferenceIdeal.Read Idealize.ShloMosaic Idealize.ShloMosaic.ValueIdx
open scoped BigOperators

/-- A natural number below 2^31, as a 32-bit word read signed, is itself. -/
theorem word_toInt (n : Nat) (h : n < 2147483648) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- The padded signal of channel `b` at position `p`: zero on the first 2047 positions, then the samples. -/
theorem padded_apply (wav : (⟨S2x32000, .f32⟩ : BufTy).Contents (Elt Ideal)) (b : Fin 2) (p : Fin 34047) :
    val_main_v5 (F := Ideal) wav (ix2 b p) = Cert.Spec.padv wav b p.val := by
  unfold val_main_v5 Cert.Spec.padv
  by_cases h : 2047 ≤ p.val
  · have h2 : p.val - 2047 < 32000 := by have := p.isLt; omega
    rw [dif_pos ⟨h, h2⟩]
    exact pad_apply_of_inside _ _ _ wav _ pads_S2x32000_S2x34047_000_204700 h_S_ (ix2 b p) (ix2 b ⟨p.val - 2047, h2⟩)
      (fun a => match a with
        | ⟨0, _⟩ => by show b.val = 0 + b.val * (0 + 1); omega
        | ⟨1, _⟩ => by show p.val = 2047 + (p.val - 2047) * (0 + 1); omega)
  · rw [dif_neg (fun hh => h hh.1)]
    refine (pad_apply_of_not_inside _ _ _ wav _ pads_S2x32000_S2x34047_000_204700 h_S_ (ix2 b p) (1 : Fin 2) (fun hh => h hh.1)).trans ?_
    show (((0#32 : BitVec 32).toInt : ℝ) : EReal) = 0
    simp

/-- The start index of tap `i` of frame `t`: the word of `16 t + i`. -/
theorem index_apply (t : Fin 2000) (i : Fin 2048) :
    val_main_v20 (F := Ideal) (ix3 t i (0 : Fin 1)) = BitVec.ofNat 32 (16 * t.val + i.val) := by
  rw [val_main_v20_apply, val_main_v19_apply, val_main_v16_apply, val_main_v18_apply, val_main_v14_apply,
    val_main_v15_apply, val_main_c_1_apply, val_main_v17_apply, val_main_c_2_apply, val_main_v12_apply,
    val_main_v13_apply, val_main_v9_apply, val_main_v11_apply, val_main_v7_apply, val_main_v8_apply,
    val_main_c_0_apply, val_main_v6_apply, val_main_v10_apply]
  have hw : IntOp.addi (IntOp.muli (BitVec.ofNat 32 t.val) 16#32) (BitVec.ofNat 32 i.val) = BitVec.ofNat 32 (16 * t.val + i.val) := by
    show BitVec.ofNat 32 t.val * BitVec.ofNat 32 16 + BitVec.ofNat 32 i.val = _
    rw [← BitVec.ofNat_mul, ← BitVec.ofNat_add, Nat.mul_comm]
  show Scalar.select (IntOp.cmpi .slt (IntOp.addi (IntOp.muli (BitVec.ofNat 32 t.val) 16#32) (BitVec.ofNat 32 i.val)) 0#32)
    (IntOp.addi (IntOp.addi (IntOp.muli (BitVec.ofNat 32 t.val) 16#32) (BitVec.ofNat 32 i.val)) 34047#32)
    (IntOp.addi (IntOp.muli (BitVec.ofNat 32 t.val) 16#32) (BitVec.ofNat 32 i.val)) = _
  rw [hw]
  have hlt : 16 * t.val + i.val < 2147483648 := by have := t.isLt; have := i.isLt; omega
  have hc : IntOp.cmpi .slt (BitVec.ofNat 32 (16 * t.val + i.val)) 0#32 = 0#1 := by
    show BitVec.ofBool ((BitVec.ofNat 32 (16 * t.val + i.val)).slt 0#32) = 0#1
    rw [BitVec.slt_eq_decide, word_toInt _ hlt, BitVec.toInt_zero, decide_eq_false (by omega)]
    rfl
  rw [hc, select_zero]

/-- The sum of the envelope over its index set is the sum over its 2048 taps. -/
def tapEquiv : S2048.Idx ≃ Fin 2048 where
  toFun j := j 0
  invFun k := ix1 k
  left_inv j := (eq_ix1 j).symm
  right_inv _ := rfl

theorem sum_env (env : (⟨S2048, .f32⟩ : BufTy).Contents (Elt Ideal)) :
    ∑ j : S2048.Idx, env j = ∑ k : Fin 2048, env (ix1 k) :=
  (Equiv.sum_comp tapEquiv.symm env).symm

/-- The normalisation scalar the reference computes. -/
theorem scale_apply (env : (⟨S2048, .f32⟩ : BufTy).Contents (Elt Ideal)) (i : S_.Idx) :
    val_main_v28 (F := Ideal) env i = Cert.Spec.scale env := by
  rw [val_main_v28_apply, val_main_v27_apply, val_main_v26_apply, val_main_cst_5_apply, val_main_cst_4_apply, val_main_cst_3_apply]
  simp only [Ideal.hostDivf_def, Ideal.ofBits_def, Ideal.ofBits_zero_f32, zero_add]
  rw [sum_env]
  rfl

/-- Tap `i` of frame `t` of channel `b`, as the reference gathers it: the padded signal at `16 t + i`.
    The start index is read signed and clamped into the padded signal; it is `16 t + i ≤ 34031`, so neither changes it. -/
theorem frames_apply (wav : (⟨S2x32000, .f32⟩ : BufTy).Contents (Elt Ideal)) (b : Fin 2) (t : Fin 2000) (i : Fin 2048) :
    val_main_v21 (F := Ideal) wav (ix3 b t i) = Cert.Spec.frame wav b t i := by
  have hp : 16 * t.val + i.val < 34047 := by have := t.isLt; have := i.isLt; omega
  have hlt : 16 * t.val + i.val < 2147483648 := by omega
  rw [show Cert.Spec.frame wav b t i = val_main_v5 (F := Ideal) wav (ix2 b ⟨16 * t.val + i.val, hp⟩) from
    (padded_apply wav b ⟨_, hp⟩).symm]
  unfold val_main_v21 Host.gather
  refine congrArg (val_main_v5 (F := Ideal) wav) (funext fun a => Fin.ext ?_)
  match a with
  | ⟨0, _⟩ =>
    show gather_S2x34047_S2000x2048x1_S2x2000x2048_0_1_n_n_1_2_21.start (ix3 b t i) (val_main_v20 (F := Ideal)) 0
      + gather_S2x34047_S2000x2048x1_S2x2000x2048_0_1_n_n_1_2_21.batchCoord (ix3 b t i) 0
      + gather_S2x34047_S2000x2048x1_S2x2000x2048_0_1_n_n_1_2_21.offCoord (ix3 b t i) 0 = b.val
    rw [GatherDims.batchCoord_eq_zero _ _ _ List.not_mem_nil]
    unfold GatherDims.start
    rw [dif_neg (show ¬ (0 : Fin 2) ∈ gather_S2x34047_S2000x2048x1_S2x2000x2048_0_1_n_n_1_2_21.startIndexMap by decide)]
    unfold GatherDims.offCoord
    rw [dif_pos (show (0 : Fin 2) ∈ gather_S2x34047_S2000x2048x1_S2x2000x2048_0_1_n_n_1_2_21.sKept by decide)]
    have hk : ∀ (n : Nat) (hn : n < gather_S2x34047_S2000x2048x1_S2x2000x2048_0_1_n_n_1_2_21.offsetDims.length), n = 0 →
        gather_S2x34047_S2000x2048x1_S2x2000x2048_0_1_n_n_1_2_21.offsetDims[n]'hn = (0 : Fin 3) := by
      intro n hn e; subst e; rfl
    rw [hk _ _ (show List.idxOf (0 : Fin 2) gather_S2x34047_S2000x2048x1_S2x2000x2048_0_1_n_n_1_2_21.sKept = 0 by decide)]
    show 0 + 0 + b.val = b.val
    omega
  | ⟨1, _⟩ =>
    show gather_S2x34047_S2000x2048x1_S2x2000x2048_0_1_n_n_1_2_21.start (ix3 b t i) (val_main_v20 (F := Ideal)) 1
      + gather_S2x34047_S2000x2048x1_S2x2000x2048_0_1_n_n_1_2_21.batchCoord (ix3 b t i) 1
      + gather_S2x34047_S2000x2048x1_S2x2000x2048_0_1_n_n_1_2_21.offCoord (ix3 b t i) 1 = 16 * t.val + i.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S2x34047_S2000x2048x1_S2x2000x2048_0_1_n_n_1_2_21.startIndexMap from List.mem_singleton.mpr rfl)]
    have hsi : gather_S2x34047_S2000x2048x1_S2x2000x2048_0_1_n_n_1_2_21.siIdx (ix3 b t i)
        ⟨List.idxOf (1 : Fin 2) gather_S2x34047_S2000x2048x1_S2x2000x2048_0_1_n_n_1_2_21.startIndexMap, List.idxOf_lt_length_iff.2 (List.mem_singleton.mpr rfl)⟩
        = ix3 t i (0 : Fin 1) := by
      funext c; refine Fin.ext ?_
      match c with
      | ⟨0, _⟩ => rfl
      | ⟨1, _⟩ => rfl
      | ⟨2, _⟩ => rfl
    rw [hsi, index_apply, word_toInt _ hlt, Int.toNat_natCast]
    show min (16 * t.val + i.val) (34047 - 1) = 16 * t.val + i.val
    omega

/-- The reference's product at filter row `f`, channel `b`, frame `t`: the sum over the taps of
    `(ker · env) / 16000` times the frame. -/
theorem dot_apply (wav : (⟨S2x32000, .f32⟩ : BufTy).Contents (Elt Ideal)) (ker : (⟨S16002x2048, .f32⟩ : BufTy).Contents (Elt Ideal))
    (env : (⟨S2048, .f32⟩ : BufTy).Contents (Elt Ideal)) (b : Fin 2) (f : Fin 16002) (t : Fin 2000) :
    val_main_v22 (F := Ideal) wav ker env (ix3 f b t)
      = ∑ k : Fin 2048, Ideal.div (ker (ix2 f k) * env (ix1 k)) Cert.Spec.c16000 * Cert.Spec.frame wav b t k := by
  rw [val_main_v22_apply]
  refine Finset.sum_congr rfl fun k _ => ?_
  have el : lidx_main_v22 (ix3 f b t) k = ix2 f k := funext fun a => by
    match a with
    | ⟨0, _⟩ => rfl
    | ⟨1, _⟩ => rfl
  have er : ridx_main_v22 (ix3 f b t) k = ix3 b t k := funext fun a => by
    match a with
    | ⟨0, _⟩ => rfl
    | ⟨1, _⟩ => rfl
    | ⟨2, _⟩ => rfl
  rw [el, er, frames_apply, val_main_v4_apply, val_main_v2_apply, val_main_v3_apply, val_main_cst_apply,
    val_main_v1_apply, val_main_v0_apply]
  have ee : idx_main_v0 (idx_main_v1 (ix2 f k)) = ix1 k := funext fun a => by
    match a with
    | ⟨0, _⟩ => rfl
  rw [ee]
  rfl

/-- The reference's first result at channel `b`, row `f < 8001`, frame `t`. -/
theorem ref_lo_apply (wav : (⟨S2x32000, .f32⟩ : BufTy).Contents (Elt Ideal)) (ker : (⟨S16002x2048, .f32⟩ : BufTy).Contents (Elt Ideal))
    (env : (⟨S2048, .f32⟩ : BufTy).Contents (Elt Ideal)) (b : Fin 2) (f : Fin 8001) (t : Fin 2000) :
    val_main_v30 (F := Ideal) wav ker env (ix3 b f t)
      = Cert.Spec.refOut wav ker env b ⟨f.val, by have := f.isLt; omega⟩ t := by
  rw [val_main_v30_apply, val_main_v24_apply, val_main_v23_apply, val_main_v29_apply, scale_apply]
  have e : idx_main_v23 (idx_main_v24 (ix3 b f t)) = ix3 (⟨f.val, by have := f.isLt; omega⟩ : Fin 16002) b t := funext fun a => by
    match a with
    | ⟨0, _⟩ => rfl
    | ⟨1, _⟩ => rfl
    | ⟨2, _⟩ => rfl
  rw [e, dot_apply]
  rfl

/-- The reference's second result at channel `b`, row `8001 + f`, frame `t`. -/
theorem ref_hi_apply (wav : (⟨S2x32000, .f32⟩ : BufTy).Contents (Elt Ideal)) (ker : (⟨S16002x2048, .f32⟩ : BufTy).Contents (Elt Ideal))
    (env : (⟨S2048, .f32⟩ : BufTy).Contents (Elt Ideal)) (b : Fin 2) (f : Fin 8001) (t : Fin 2000) :
    val_main_v32 (F := Ideal) wav ker env (ix3 b f t)
      = Cert.Spec.refOut wav ker env b ⟨f.val + 8001, by have := f.isLt; omega⟩ t := by
  rw [val_main_v32_apply, val_main_v25_apply, val_main_v23_apply, val_main_v31_apply, scale_apply]
  have e : idx_main_v23 (idx_main_v25 (ix3 b f t)) = ix3 (⟨f.val + 8001, by have := f.isLt; omega⟩ : Fin 16002) b t := funext fun a => by
    match a with
    | ⟨0, _⟩ => exact Fin.ext (by show 8001 + f.val = f.val + 8001; omega)
    | ⟨1, _⟩ => rfl
    | ⟨2, _⟩ => rfl
  rw [e, dot_apply]
  rfl

/-- The reference's first result is the specification's value on rows `0 … 8000`. -/
theorem ref_v30 (wav : (⟨S2x32000, .f32⟩ : BufTy).Contents (Elt Ideal)) (ker : (⟨S16002x2048, .f32⟩ : BufTy).Contents (Elt Ideal))
    (env : (⟨S2048, .f32⟩ : BufTy).Contents (Elt Ideal)) :
    val_main_v30 (F := Ideal) wav ker env
      = fun j => Cert.Spec.refOut wav ker env (j 0) ⟨(j 1).val, by have h1 : (j 1).val < 8001 := (j 1).isLt; omega⟩ (j 2) := by
  funext j
  obtain ⟨b, f, t, rfl⟩ : ∃ (b : Fin 2) (f : Fin 8001) (t : Fin 2000), j = ix3 b f t := ⟨j 0, j 1, j 2, eq_ix3 j⟩
  exact ref_lo_apply wav ker env b f t

/-- The reference's second result is the specification's value on rows `8001 … 16001`. -/
theorem ref_v32 (wav : (⟨S2x32000, .f32⟩ : BufTy).Contents (Elt Ideal)) (ker : (⟨S16002x2048, .f32⟩ : BufTy).Contents (Elt Ideal))
    (env : (⟨S2048, .f32⟩ : BufTy).Contents (Elt Ideal)) :
    val_main_v32 (F := Ideal) wav ker env
      = fun j => Cert.Spec.refOut wav ker env (j 0) ⟨(j 1).val + 8001, by have h1 : (j 1).val < 8001 := (j 1).isLt; omega⟩ (j 2) := by
  funext j
  obtain ⟨b, f, t, rfl⟩ : ∃ (b : Fin 2) (f : Fin 8001) (t : Fin 2000), j = ix3 b f t := ⟨j 0, j 1, j 2, eq_ix3 j⟩
  exact ref_hi_apply wav ker env b f t

end Cert.RefValue

end
-- ==== Proof.Algebra.lean ====
/-
  The law that joins the two sides. When every entry of the three arrays is a real number and the envelope's area is
  not zero, the normalisation `scale` is a real number, and a finite sum of real products is linear in a real factor:
  `∑ₖ (aₖ · ((eₖ / 16000) · s)) · xₖ = (∑ₖ ((aₖ · eₖ) / 16000) · xₖ) · s`.
  (At an infinite `scale` — a zero area — the two sides differ, which is why the area is assumed nonzero.)
-/
import proofs.«155504_j34505767256674_2_alg».proof.Proof.Spec
import Idealize.ShloMosaic.PureOps.Ideal.Laws

noncomputable section

namespace Cert.Spec

open Idealize.ShloMosaic Idealize.ShloMosaic.ValueIdx

/-- The word `0x467A0000` denotes the real number 16000. -/
theorem c16000_eq : c16000 = ((16000 : ℝ) : EReal) := by
  unfold c16000; simp [Ideal.ofBits, Ideal.ieee, -EReal.coe_mul]; norm_num

/-- The root-8 word denotes a real number (a finite pattern). -/
theorem cRoot8_real : ∃ r : ℝ, cRoot8 = (r : EReal) := by
  unfold cRoot8; simp [Ideal.ofBits, Ideal.ieee, -EReal.coe_mul]

/-- A finite sum of real numbers, read in the extended reals, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A frame tap of a real signal is a real number: a sample, or the zero of the padding. -/
theorem frame_real (wav : SWav.Idx → EReal) (hw : ∀ i, ∃ x : ℝ, wav i = (x : EReal)) (b : Fin 2) (t : Fin 2000) (k : Fin 2048) :
    ∃ x : ℝ, frame wav b t k = (x : EReal) := by
  unfold frame padv
  split
  · exact hw _
  · exact ⟨0, rfl⟩

/-- The area of a real envelope is the real number `(∑ env) · (1/16000)`. -/
theorem area_real (env : SEnv.Idx → EReal) (er : SEnv.Idx → ℝ) (he : ∀ i, env i = (er i : EReal)) :
    area env = (((∑ k : Fin 2048, er (ix1 k)) * (1 / 16000) : ℝ) : EReal) := by
  have h16 : (16000 : ℝ) ≠ 0 := by norm_num
  have hs : (∑ k : Fin 2048, env (ix1 k)) = ((∑ k : Fin 2048, er (ix1 k) : ℝ) : EReal) := by
    rw [coe_sum]; exact Finset.sum_congr rfl (fun k _ => he _)
  unfold area
  rw [hs, c16000_eq, Ideal.div_coe h16, ← EReal.coe_mul]

/-- THE LAW: for real arrays and a nonzero area the kernel's value is the reference's. -/
theorem kerOut_eq_refOut (wav : SWav.Idx → EReal) (ker : SKer.Idx → EReal) (env : SEnv.Idx → EReal)
    (hw : ∀ i, ∃ x : ℝ, wav i = (x : EReal)) (hk : ∀ i, ∃ x : ℝ, ker i = (x : EReal)) (he : ∀ i, ∃ x : ℝ, env i = (x : EReal))
    (ha : area env ≠ 0) (b : Fin 2) (f : Fin 16002) (t : Fin 2000) :
    kerOut wav ker env b f t = refOut wav ker env b f t := by
  choose kr hkr using hk
  choose er her using he
  choose fr hfr using frame_real wav hw b t
  obtain ⟨r8, hr8⟩ := cRoot8_real
  obtain ⟨a, harea, ha'⟩ : ∃ a : ℝ, area env = (a : EReal) ∧ a ≠ 0 :=
    ⟨_, area_real env er her, fun h => ha (by rw [area_real env er her, h]; rfl)⟩
  have hscale : scale env = ((r8 * (1 / a) : ℝ) : EReal) := by
    unfold scale; rw [harea, hr8, Ideal.div_coe ha', ← EReal.coe_mul]
  have h16 : (16000 : ℝ) ≠ 0 := by norm_num
  unfold kerOut refOut envVec
  simp only [hscale, hkr, her, hfr, c16000_eq, Ideal.div_coe h16, ← EReal.coe_mul, ← coe_sum]
  refine congrArg (fun x : ℝ => (x : EReal)) ?_
  rw [Finset.sum_mul]
  exact Finset.sum_congr rfl (fun k _ => by ring)

end Cert.Spec

end
-- ==== Proof.PreDecode.lean ====
/-
  What the precondition says, in mathematical terms: every entry of the three argument arrays is a real number
  (its absolute value is below +∞, so it is neither infinity), and the envelope's area — its sum divided by 16000 —
  is not zero.
-/
import proofs.«155504_j34505767256674_2_alg».proof.Pre_finite_inputs
import proofs.«155504_j34505767256674_2_alg».proof.Proof.Spec
import Idealize.ShloMosaic.Lib.ReduceAll
import Idealize.ShloMosaic.Lib.Affine
import Idealize.ShloMosaic.Lib.IdealHost
import Idealize.ShloMosaic.PureOps.Ideal.Laws

noncomputable section

namespace Cert.PreDecode

open Idealize.ShloMosaic Idealize.ShloMosaic.ValueIdx Cert.Pre_finite_inputs

variable [Cert.Pre_finite_inputs.Facts]
open Cert.Pre_finite_inputs.Facts

instance : Subsingleton S_.Idx := ⟨fun a b => funext fun d => d.elim0⟩

/-- The word `0x7F800000` denotes +∞. -/
theorem inf_eq : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_eq] at h
  have hlt : max x (-x) < ⊤ := by
    by_contra hn
    simp [Ideal.cmp, hn] at h
  induction x using EReal.rec with
  | bot => simp at hlt
  | coe r => exact ⟨r, rfl⟩
  | top => simp at hlt

/-- The one-axis index type of length 2048 is `Fin 2048`. -/
def idxEquiv1 : S2048.Idx ≃ Fin 2048 where
  toFun i := i 0
  invFun k := ix1 k
  left_inv i := (eq_ix1 i).symm
  right_inv _ := rfl

/-- The precondition, decoded. -/
theorem decode (wav : FVec Ideal S2x32000 .f32) (ker : FVec Ideal S16002x2048 .f32) (env : FVec Ideal S2048 .f32)
    (h : Cert.Pre_finite_inputs.fn (F := Ideal) wav ker env = fun _ => 1#1) :
    (∀ i, ∃ r : ℝ, wav i = (r : EReal)) ∧ (∀ i, ∃ r : ℝ, ker i = (r : EReal)) ∧ (∀ i, ∃ r : ℝ, env i = (r : EReal))
      ∧ Cert.Spec.area env ≠ 0 := by
  have h0 := congrFun h ValueIdx.ix0
  dsimp only [Cert.Pre_finite_inputs.fn, Cert.Pre_finite_inputs.fn_part1] at h0
  obtain ⟨h123, h4⟩ := IntOp.andi_eq_one.mp h0
  obtain ⟨h12, h3⟩ := IntOp.andi_eq_one.mp h123
  obtain ⟨h1, h2⟩ := IntOp.andi_eq_one.mp h12
  refine ⟨fun i => real_of_abs_lt _ (Host.reduce_andi_all _ _ _ _ _ h1 i),
    fun i => real_of_abs_lt _ (Host.reduce_andi_all _ _ _ _ _ h2 i),
    fun i => real_of_abs_lt _ (Host.reduce_andi_all _ _ _ _ _ h3 i), ?_⟩
  -- the fourth conjunct: the quotient of the sum by 16000 differs from zero
  have h4' : Ideal.cmp .une (Ideal.div (Ideal.hostReduceAdd reducesTo_S2048_S_d0 env (Ideal.ofBits .f32 0x00000000#32) ix0)
      (Ideal.ofBits .f32 0x467A0000#32)) (Ideal.ofBits .f32 0x00000000#32) = 1#1 := h4
  rw [Ideal.hostReduceAdd_total reducesTo_S2048_S_d0 (fun b => b.elim0), Ideal.ofBits_zero_f32, zero_add] at h4'
  have hne : Ideal.div (∑ i : S2048.Idx, env i) (Ideal.ofBits .f32 0x467A0000#32) ≠ 0 := by
    intro hz
    simp [Ideal.cmp, hz] at h4'
  have hsum : (∑ i : S2048.Idx, env i) = ∑ k : Fin 2048, env (ix1 k) :=
    Fintype.sum_equiv idxEquiv1 _ _ (fun i => by rw [show ix1 (idxEquiv1 i) = i from (eq_ix1 i).symm])
  unfold Cert.Spec.area Cert.Spec.c16000
  rw [← hsum]
  exact hne

end Cert.PreDecode

end
-- ==== Proof.lean ====
/-
  A bank of 16002 filters of 2048 taps is correlated with every 16th window of a two-channel signal of 32000 samples,
  padded on the left with 2047 zeros: for channel b, filter row f and frame t the result is the sum over the taps k of
  filter (f, k) times the envelope at k times the padded signal at 16 t + k, divided by 16000 and multiplied by the
  normalisation scale = √8-word / ((∑ envelope) / 16000); rows 0‥8000 form the first result, rows 8001‥16001 the second.

  The kernel folds the two scalars into one row of weights (envelope k / 16000) · scale, multiplies each block of 256
  filter rows by it and takes the product with each channel's frames; the reference divides filter · envelope by 16000
  inside the sum and multiplies the finished sum by scale. Proved here:
  • the three frames (each program terminates, faults nowhere and leaves its arguments as they were);
  • the two programs' results agree as extended reals, index by index. Both sides are read as the functions
    `Spec.kerOut` and `Spec.refOut` of the argument arrays; they are equal because under the precondition every entry
    is a real number and the envelope's area is not zero, so scale is a real number and a finite sum of real products
    is linear in it (`Spec.kerOut_eq_refOut`). Without the condition on the area the claim is false: at a zero area
    scale is +∞, the kernel's sum can meet +∞ + (−∞) while the reference's is 0 · (+∞).
-/
import proofs.«155504_j34505767256674_2_alg».proof.Defs
import proofs.«155504_j34505767256674_2_alg».proof.Proof.Gen.Kernel
import proofs.«155504_j34505767256674_2_alg».proof.Proof.Gen.KernelIdeal
import proofs.«155504_j34505767256674_2_alg».proof.Proof.Gen.ReferenceIdeal
import proofs.«155504_j34505767256674_2_alg».proof.Proof.Gen.Pre_finite_inputs
import proofs.«155504_j34505767256674_2_alg».proof.Proof.Gen.ReferenceIdeal.Run
import proofs.«155504_j34505767256674_2_alg».proof.Proof.Gen.ReferenceIdeal.Read
import proofs.«155504_j34505767256674_2_alg».proof.Proof.KernelFrame
import proofs.«155504_j34505767256674_2_alg».proof.Proof.KernelIdealFrame
import proofs.«155504_j34505767256674_2_alg».proof.Proof.RunIdeal
import proofs.«155504_j34505767256674_2_alg».proof.Proof.OutArray
import proofs.«155504_j34505767256674_2_alg».proof.Proof.HostValue
import proofs.«155504_j34505767256674_2_alg».proof.Proof.RefValue
import proofs.«155504_j34505767256674_2_alg».proof.Proof.Algebra
import proofs.«155504_j34505767256674_2_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-! ## The idealized kernel's results -/

section Kernel

open Cert.KernelIdeal Cert.KernelIdeal.Gen

variable (m : (ℓ : Loc nD τ sig) → Buf (Elt Ideal) ℓ) (ρ : Dev nD → PrngReg)

/-- The array the region writes, once every block is written back, is the kernel's function of the three arguments:
    the region's result over the filter bank as launched, the folded weights and the frames. -/
theorem out_spec (c : Dev nD) (j : S2x16002x2000.Idx) :
    ((Data.dats m 0 c).arrAt 3 cfg0.N : S2x16002x2000.Idx → EReal) j
      = Cert.Spec.kerOut (m ((c : Thread nD τ).loc main_arg0)) (m ((c : Thread nD τ).loc main_arg1)) (m ((c : Thread nD τ).loc main_arg2)) (j 0) (j 1) (j 2) := by
  rw [OutArray.out_final, HostValue.V_envvec, HostValue.V_frames, Gen.V_main_arg1]
  rfl

/-- The idealized kernel runs, its two results are rows 0‥8000 and 8001‥16001 of that array, and its arguments are
    unchanged. -/
theorem kernel_run : θ_run defs (onTc (τ := τ) (main (F := Ideal))) ⟨m, fun _ => 0, ρ⟩ (fun r => ∀ c : Dev nD,
      r.2.mem ((c.tc : Thread nD τ).loc main_v27) = (fun j => Cert.Spec.kerOut (m ((c : Thread nD τ).loc main_arg0)) (m ((c : Thread nD τ).loc main_arg1)) (m ((c : Thread nD τ).loc main_arg2)) (j 0) ⟨(j 1).val, by have h1 : (j 1).val < 8001 := (j 1).isLt; show (j 1).val < 16002; omega⟩ (j 2) : S2x8001x2000.Idx → EReal)
      ∧ r.2.mem ((c.tc : Thread nD τ).loc main_v28) = (fun j => Cert.Spec.kerOut (m ((c : Thread nD τ).loc main_arg0)) (m ((c : Thread nD τ).loc main_arg1)) (m ((c : Thread nD τ).loc main_arg2)) (j 0) ⟨(j 1).val + 8001, by have h1 : (j 1).val < 8001 := (j 1).isLt; show (j 1).val + 8001 < 16002; omega⟩ (j 2) : S2x8001x2000.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, ?_, ?_, ?_, ?_⟩) (RunIdeal.run_ideal m ρ)
  · refine ((h c).2 main_v27 (Pipeline.mem_restRefs_of main_v27 (by decide) (by decide))).trans ?_
    refine (HostValue.tail_v27 (Data.dats m) m c).trans ?_
    funext j; exact out_spec m c _
  · refine ((h c).2 main_v28 (Pipeline.mem_restRefs_of main_v28 (by decide) (by decide))).trans ?_
    refine (HostValue.tail_v28 (Data.dats m) m c).trans ?_
    funext j; exact out_spec m c _
  · exact ((h c).2 main_arg0 (Pipeline.mem_restRefs_of main_arg0 (by decide) (by decide))).trans (Gen.W_main_arg0 m (Data.dats m) c)
  · exact ((h c).1 0).trans (((Data.dats m 0 c).arrAt_in 0 rfl _).trans ((Data.A_eq m c 0).trans (Gen.V_main_arg1 m c)))
  · exact ((h c).2 main_arg2 (Pipeline.mem_restRefs_of main_arg2 (by decide) (by decide))).trans (Gen.W_main_arg2 m (Data.dats m) c)

end Kernel

/-! ## The claims -/

/-- The word-level kernel terminates, faults nowhere and leaves its arguments as they were. -/
theorem frame_k : Cert.frame_Kernel := fun m ρ _ => Cert.Kernel.FrameProof.frame (F := Bits) m ρ

/-- So does the idealized kernel. -/
theorem frame_ki : Cert.frame_KernelIdeal := fun m ρ _ => Cert.KernelIdeal.FrameProof.frame (F := Ideal) m ρ

/-- So does the idealized reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories that agree on the arguments the two idealized programs end with equal results: the kernel's are
    `Spec.kerOut` of the arguments, the reference's `Spec.refOut`, and under the precondition — every entry a real
    number, the envelope's area not zero — the two are one function. -/
theorem algebraic : Cert.algebraic_KernelIdeal_ReferenceIdeal := by
  intro m ρ m' ρ' hpre hagree
  refine ⟨_, _, kernel_run m ρ, ?_⟩
  refine (θ_run Cert.ReferenceIdeal.defs _ _).mono (fun r h c => ⟨?_, ?_, (h c).2.2⟩)
    (Cert.ReferenceIdeal.Value.run (F := Ideal) m' ρ')
  · obtain ⟨hw, hk, he, ha⟩ := Cert.PreDecode.decode _ _ _ (hpre c)
    rw [(h c).1, Cert.ReferenceIdeal.Read.val_main_v30_eq, Cert.RefValue.ref_v30, (hagree c).1, (hagree c).2.1, (hagree c).2.2]
    funext j
    exact (Cert.Spec.kerOut_eq_refOut _ _ _ hw hk he ha _ _ _).symm
  · obtain ⟨hw, hk, he, ha⟩ := Cert.PreDecode.decode _ _ _ (hpre c)
    rw [(h c).2.1, Cert.ReferenceIdeal.Read.val_main_v32_eq, Cert.RefValue.ref_v32, (hagree c).1, (hagree c).2.1, (hagree c).2.2]
    funext j
    exact (Cert.Spec.kerOut_eq_refOut _ _ _ hw hk he ha _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
